-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50x768 : Shape := ⟨3, ![1024, 50, 768]⟩
abbrev S768x768 : Shape := ⟨2, ![768, 768]⟩
abbrev S768 : Shape := ⟨1, ![768]⟩
abbrev S_ : Shape := ⟨0, ![]⟩

class Facts : Prop where
  bcast_S_S1024x50x768 : S_.BroadcastsInDim S1024x50x768 (![] : Fin 0 → Fin S1024x50x768.rank)
  reducesTo_S1024x50x768_S_d0_1_2 : S1024x50x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S1024x50x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S1024x50x768 .f32 := Host.absf main_arg0
  let main_cst : FVec F S_ .f32 := constant S_ .f32 0x7F800000#32
  let main_v1 : FVec F S1024x50x768 .f32 := broadcastInDim S1024x50x768 ![] bcast_S_S1024x50x768 main_cst
  let main_v2 : IVec S1024x50x768 1 := cmpf .olt main_v0 main_v1
  let main_c : IVec S_ 1 := constantI S_ 1 1#1
  let main_v3 : IVec S_ 1 := (fun x v => Host.reduce IntOp.andi x v reducesTo_S1024x50x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S1024x50x768 : Shape := ⟨3, ![1024, 50, 768]⟩
abbrev S768x768 : Shape := ⟨2, ![768, 768]⟩
abbrev S768 : Shape := ⟨1, ![768]⟩
abbrev S50 : Shape := ⟨1, ![50]⟩
abbrev S50x1 : Shape := ⟨2, ![50, 1]⟩
abbrev S1x50 : Shape := ⟨2, ![1, 50]⟩
abbrev S50x50 : Shape := ⟨2, ![50, 50]⟩
abbrev S_ : Shape := ⟨0, ![]⟩
abbrev S1024x12x50x64 : Shape := ⟨4, ![1024, 12, 50, 64]⟩
abbrev S16x50x768 : Shape := ⟨3, ![16, 50, 768]⟩
abbrev S16x12x50x64 : Shape := ⟨4, ![16, 12, 50, 64]⟩
abbrev S1x50x768 : Shape := ⟨3, ![1, 50, 768]⟩
abbrev S50x768 : Shape := ⟨2, ![50, 768]⟩
abbrev S1x768 : Shape := ⟨2, ![1, 768]⟩
abbrev S16x50x64 : Shape := ⟨3, ![16, 50, 64]⟩
abbrev S16x64x50 : Shape := ⟨3, ![16, 64, 50]⟩
abbrev S16x50x50 : Shape := ⟨3, ![16, 50, 50]⟩
abbrev S1x50x50 : Shape := ⟨3, ![1, 50, 50]⟩
abbrev S16x50 : Shape := ⟨2, ![16, 50]⟩
abbrev S16x50x1 : Shape := ⟨3, ![16, 50, 1]⟩
abbrev S16x1 : Shape := ⟨2, ![16, 1]⟩
abbrev S16x1x1 : Shape := ⟨3, ![16, 1, 1]⟩
abbrev S16x1x50x64 : Shape := ⟨4, ![16, 1, 50, 64]⟩

abbrev nBuf : Space → Nat
  | .hbm => 29
  | .vmem => 14
  | .smem => 0
  | _ => 0

abbrev bufTy : (tb : Table) → Fin (tcTables nBuf tb) → BufTy
  | .hbm, ⟨0, _⟩ => ⟨S1024x50x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S50, .i32⟩
  | .hbm, ⟨8, _⟩ => ⟨S50x1, .i32⟩
  | .hbm, ⟨9, _⟩ => ⟨S1x50, .i32⟩
  | .hbm, ⟨10, _⟩ => ⟨S50x50, .i32⟩
  | .hbm, ⟨11, _⟩ => ⟨S50x50, .i32⟩
  | .hbm, ⟨12, _⟩ => ⟨S50x50, .i32⟩
  | .hbm, ⟨13, _⟩ => ⟨S50x50, .i32⟩
  | .hbm, ⟨14, _⟩ => ⟨S50x50, .f32⟩
  | .hbm, ⟨15, _⟩ => ⟨S_, .f32⟩
  | .hbm, ⟨16, _⟩ => ⟨S50x50, .f32⟩
  | .hbm, ⟨17, _⟩ => ⟨S50x50, .f32⟩
  | .hbm, ⟨18, _⟩ => ⟨S_, .f32⟩
  | .hbm, ⟨19, _⟩ => ⟨S50x50, .f32⟩
  | .hbm, ⟨20, _⟩ => ⟨S50x50, .f32⟩
  | .hbm, ⟨21, _⟩ => ⟨S768x768, .f32⟩
  | .hbm, ⟨22, _⟩ => ⟨S768x768, .bf16⟩
  | .hbm, ⟨23, _⟩ => ⟨S768x768, .f32⟩
  | .hbm, ⟨24, _⟩ => ⟨S768x768, .bf16⟩
  | .hbm, ⟨25, _⟩ => ⟨S768x768, .f32⟩
  | .hbm, ⟨26, _⟩ => ⟨S768x768, .bf16⟩
  | .hbm, ⟨27, _⟩ => ⟨S1024x12x50x64, .f32⟩
  | .hbm, ⟨28, _⟩ => ⟨S1024x50x768, .f32⟩
  | .local _ .vmem, ⟨0, _⟩ => ⟨S16x50x768, .f32⟩
  | .local _ .vmem, ⟨1, _⟩ => ⟨S16x50x768, .f32⟩
  | .local _ .vmem, ⟨2, _⟩ => ⟨S768x768, .bf16⟩
  | .local _ .vmem, ⟨3, _⟩ => ⟨S768, .f32⟩
  | .local _ .vmem, ⟨4, _⟩ => ⟨S768x768, .bf16⟩
  | .local _ .vmem, ⟨5, _⟩ => ⟨S768, .f32⟩
  | .local _ .vmem, ⟨6, _⟩ => ⟨S768x768, .bf16⟩
  | .local _ .vmem, ⟨7, _⟩ => ⟨S768, .f32⟩
  | .local _ .vmem, ⟨8, _⟩ => ⟨S50x50, .f32⟩
  | .local _ .vmem, ⟨9, _⟩ => ⟨S16x12x50x64, .f32⟩
  | .local _ .vmem, ⟨10, _⟩ => ⟨S16x12x50x64, .f32⟩
  | .local _ .vmem, ⟨11, _⟩ => ⟨S16x50x768, .f32⟩
  | .local _ .vmem, ⟨12, _⟩ => ⟨S16x50x768, .f32⟩
  | .local _ .vmem, ⟨13, _⟩ => ⟨S16x50x768, .f32⟩
  | _, _ => ⟨S1024x50x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x50x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x12x50x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S50_S50x1_0 : S50.BroadcastsInDim S50x1 (![0] : Fin 1 → Fin S50x1.rank)
  bcast_S50_S1x50_1 : S50.BroadcastsInDim S1x50 (![1] : Fin 1 → Fin S1x50.rank)
  bcast_S50x1_S50x50_0_1 : S50x1.BroadcastsInDim S50x50 (![0, 1] : Fin 2 → Fin S50x50.rank)
  bcast_S1x50_S50x50_0_1 : S1x50.BroadcastsInDim S50x50 (![0, 1] : Fin 2 → Fin S50x50.rank)
  bcast_S_S50x50 : S_.BroadcastsInDim S50x50 (![] : Fin 0 → Fin S50x50.rank)
  transposes_S768x768_S768x768_1_0 : S768x768.Transposes [1, 0] S768x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  inb_S16x50x768_S1x50x768_0_0_0 : ∀ a, (![0, 0, 0] : Fin 3 → Nat) a + S1x50x768.size a ≤ S16x50x768.size a
  h_S1x50x768 : 0 < S1x50x768.numel
  shapeCasts_S1x50x768_S50x768 : S1x50x768.ShapeCasts S50x768
  shapeCasts_S768_S1x768 : S768.ShapeCasts S1x768
  broadcasts_S1x768_S50x768 : S1x768.Broadcasts S50x768
  shapeCasts_S50x768_S1x50x768 : S50x768.ShapeCasts S1x50x768
  inb_S16x50x768_S1x50x768_1_0_0 : ∀ a, (![1, 0, 0] : Fin 3 → Nat) a + S1x50x768.size a ≤ S16x50x768.size a
  inb_S16x50x768_S1x50x768_2_0_0 : ∀ a, (![2, 0, 0] : Fin 3 → Nat) a + S1x50x768.size a ≤ S16x50x768.size a
  inb_S16x50x768_S1x50x768_3_0_0 : ∀ a, (![3, 0, 0] : Fin 3 → Nat) a + S1x50x768.size a ≤ S16x50x768.size a
  inb_S16x50x768_S1x50x768_4_0_0 : ∀ a, (![4, 0, 0] : Fin 3 → Nat) a + S1x50x768.size a ≤ S16x50x768.size a
  inb_S16x50x768_S1x50x768_5_0_0 : ∀ a, (![5, 0, 0] : Fin 3 → Nat) a + S1x50x768.size a ≤ S16x50x768.size a
  inb_S16x50x768_S1x50x768_6_0_0 : ∀ a, (![6, 0, 0] : Fin 3 → Nat) a + S1x50x768.size a ≤ S16x50x768.size a
  inb_S16x50x768_S1x50x768_7_0_0 : ∀ a, (![7, 0, 0] : Fin 3 → Nat) a + S1x50x768.size a ≤ S16x50x768.size a
  inb_S16x50x768_S1x50x768_8_0_0 : ∀ a, (![8, 0, 0] : Fin 3 → Nat) a + S1x50x768.size a ≤ S16x50x768.size a
  inb_S16x50x768_S1x50x768_9_0_0 : ∀ a, (![9, 0, 0] : Fin 3 → Nat) a + S1x50x768.size a ≤ S16x50x768.size a
  inb_S16x50x768_S1x50x768_10_0_0 : ∀ a, (![10, 0, 0] : Fin 3 → Nat) a + S1x50x768.size a ≤ S16x50x768.size a
  inb_S16x50x768_S1x50x768_11_0_0 : ∀ a, (![11, 0, 0] : Fin 3 → Nat) a + S1x50x768.size a ≤ S16x50x768.size a
  inb_S16x50x768_S1x50x768_12_0_0 : ∀ a, (![12, 0, 0] : Fin 3 → Nat) a + S1x50x768.size a ≤ S16x50x768.size a
  inb_S16x50x768_S1x50x768_13_0_0 : ∀ a, (![13, 0, 0] : Fin 3 → Nat) a + S1x50x768.size a ≤ S16x50x768.size a
  inb_S16x50x768_S1x50x768_14_0_0 : ∀ a, (![14, 0, 0] : Fin 3 → Nat) a + S1x50x768.size a ≤ S16x50x768.size a
  inb_S16x50x768_S1x50x768_15_0_0 : ∀ a, (![15, 0, 0] : Fin 3 → Nat) a + S1x50x768.size a ≤ S16x50x768.size a
  inb_S50x50_S50x50_0_0 : ∀ a, (![0, 0] : Fin 2 → Nat) a + S50x50.size a ≤ S50x50.size a
  h_S50x50 : 0 < S50x50.numel
  shapeCasts_S50x50_S50x50 : S50x50.ShapeCasts S50x50
  inb_S16x50x768_S16x50x64_0_0_0 : ∀ a, (![0, 0, 0] : Fin 3 → Nat) a + S16x50x64.size a ≤ S16x50x768.size a
  h_S16x50x64 : 0 < S16x50x64.numel
  transposes_S16x50x64_p0_2_1_S16x64x50 : S16x50x64.Transposes [0, 2, 1] S16x64x50
  shapeCasts_S50x50_S1x50x50 : S50x50.ShapeCasts S1x50x50
  broadcasts_S1x50x50_S16x50x50 : S1x50x50.Broadcasts S16x50x50
  reduces_S16x50x64_S16x50 : S16x50x64.Reduces [2] S16x50
  shapeCasts_S16x50_S16x50x1 : S16x50.ShapeCasts S16x50x1
  reduces_S16x50x1_S16x1 : S16x50x1.Reduces [1] S16x1
  shapeCasts_S16x1_S16x1x1 : S16x1.ShapeCasts S16x1x1
  broadcasts_S16x1x1_S16x50x64 : S16x1x1.Broadcasts S16x50x64
  inb_S16x12x50x64_S16x1x50x64_0_0_0_0 : ∀ a, (![0, 0, 0, 0] : Fin 4 → Nat) a + S16x1x50x64.size a ≤ S16x12x50x64.size a
  h_S16x1x50x64 : 0 < S16x1x50x64.numel
  shapeCasts_S16x1x50x64_S16x50x64 : S16x1x50x64.ShapeCasts S16x50x64
  shapeCasts_S16x50x64_S16x1x50x64 : S16x50x64.ShapeCasts S16x1x50x64
  inb_S16x50x768_S16x50x64_0_0_64 : ∀ a, (![0, 0, 64] : Fin 3 → Nat) a + S16x50x64.size a ≤ S16x50x768.size a
  inb_S16x12x50x64_S16x1x50x64_0_1_0_0 : ∀ a, (![0, 1, 0, 0] : Fin 4 → Nat) a + S16x1x50x64.size a ≤ S16x12x50x64.size a
  inb_S16x50x768_S16x50x64_0_0_128 : ∀ a, (![0, 0, 128] : Fin 3 → Nat) a + S16x50x64.size a ≤ S16x50x768.size a
  inb_S16x12x50x64_S16x1x50x64_0_2_0_0 : ∀ a, (![0, 2, 0, 0] : Fin 4 → Nat) a + S16x1x50x64.size a ≤ S16x12x50x64.size a
  inb_S16x50x768_S16x50x64_0_0_192 : ∀ a, (![0, 0, 192] : Fin 3 → Nat) a + S16x50x64.size a ≤ S16x50x768.size a
  inb_S16x12x50x64_S16x1x50x64_0_3_0_0 : ∀ a, (![0, 3, 0, 0] : Fin 4 → Nat) a + S16x1x50x64.size a ≤ S16x12x50x64.size a
  inb_S16x50x768_S16x50x64_0_0_256 : ∀ a, (![0, 0, 256] : Fin 3 → Nat) a + S16x50x64.size a ≤ S16x50x768.size a
  inb_S16x12x50x64_S16x1x50x64_0_4_0_0 : ∀ a, (![0, 4, 0, 0] : Fin 4 → Nat) a + S16x1x50x64.size a ≤ S16x12x50x64.size a
  inb_S16x50x768_S16x50x64_0_0_320 : ∀ a, (![0, 0, 320] : Fin 3 → Nat) a + S16x50x64.size a ≤ S16x50x768.size a
  inb_S16x12x50x64_S16x1x50x64_0_5_0_0 : ∀ a, (![0, 5, 0, 0] : Fin 4 → Nat) a + S16x1x50x64.size a ≤ S16x12x50x64.size a
  inb_S16x50x768_S16x50x64_0_0_384 : ∀ a, (![0, 0, 384] : Fin 3 → Nat) a + S16x50x64.size a ≤ S16x50x768.size a
  inb_S16x12x50x64_S16x1x50x64_0_6_0_0 : ∀ a, (![0, 6, 0, 0] : Fin 4 → Nat) a + S16x1x50x64.size a ≤ S16x12x50x64.size a
  inb_S16x50x768_S16x50x64_0_0_448 : ∀ a, (![0, 0, 448] : Fin 3 → Nat) a + S16x50x64.size a ≤ S16x50x768.size a
  inb_S16x12x50x64_S16x1x50x64_0_7_0_0 : ∀ a, (![0, 7, 0, 0] : Fin 4 → Nat) a + S16x1x50x64.size a ≤ S16x12x50x64.size a
  inb_S16x50x768_S16x50x64_0_0_512 : ∀ a, (![0, 0, 512] : Fin 3 → Nat) a + S16x50x64.size a ≤ S16x50x768.size a
  inb_S16x12x50x64_S16x1x50x64_0_8_0_0 : ∀ a, (![0, 8, 0, 0] : Fin 4 → Nat) a + S16x1x50x64.size a ≤ S16x12x50x64.size a
  inb_S16x50x768_S16x50x64_0_0_576 : ∀ a, (![0, 0, 576] : Fin 3 → Nat) a + S16x50x64.size a ≤ S16x50x768.size a
  inb_S16x12x50x64_S16x1x50x64_0_9_0_0 : ∀ a, (![0, 9, 0, 0] : Fin 4 → Nat) a + S16x1x50x64.size a ≤ S16x12x50x64.size a
  inb_S16x50x768_S16x50x64_0_0_640 : ∀ a, (![0, 0, 640] : Fin 3 → Nat) a + S16x50x64.size a ≤ S16x50x768.size a
  inb_S16x12x50x64_S16x1x50x64_0_10_0_0 : ∀ a, (![0, 10, 0, 0] : Fin 4 → Nat) a + S16x1x50x64.size a ≤ S16x12x50x64.size a
  inb_S16x50x768_S16x50x64_0_0_704 : ∀ a, (![0, 0, 704] : Fin 3 → Nat) a + S16x50x64.size a ≤ S16x50x768.size a
  inb_S16x12x50x64_S16x1x50x64_0_11_0_0 : ∀ a, (![0, 11, 0, 0] : Fin 4 → Nat) a + S16x1x50x64.size a ≤ S16x12x50x64.size a
  shapeCasts_S1024x12x50x64_S1024x50x768 : S1024x12x50x64.ShapeCasts S1024x50x768
  dot_S50x768_S768x768_S50x768_1_0_0_1_n_n_wf : DotDims.WF S50x768 S768x768 S50x768 [1] [0] [0] [1] [] []
  dot_S16x50x64_S16x64x50_S16x50x50_2_1_1_2_0_0_wf : DotDims.WF S16x50x64 S16x64x50 S16x50x50 [2] [1] [1] [2] [0] [0]
  dot_S16x50x50_S16x50x64_S16x50x64_2_1_1_2_0_0_wf : DotDims.WF S16x50x50 S16x50x64 S16x50x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x50x768.size a ≤ S1024x50x768.size a
  hwx0_0 : ∀ i : grid0.Coords, EltTy.bits .f32 = 32 ∨ (Rect.block (s := S1024x50x768) S16x50x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x50.size a ≤ S50x50.size a
  hwx0_7 : ∀ i : grid0.Coords, EltTy.bits .f32 = 32 ∨ (Rect.block (s := S50x50) S50x50.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x12x50x64.size a ≤ S1024x12x50x64.size a
  hwx0_8 : ∀ i : grid0.Coords, EltTy.bits .f32 = 32 ∨ (Rect.block (s := S1024x12x50x64) S16x12x50x64.size (cc0_transform_8 i) (hinb0_8 i)).WholeWords (EltTy.packing .f32)

variable [Facts₀]

def dot_S50x768_S768x768_S50x768_1_0_0_1_n_n : DotDims S50x768 S768x768 S50x768 where
  lhsContracting := [1]
  rhsContracting := [0]
  lhsNonContracting := [0]
  rhsNonContracting := [1]
  lhsBatch := []
  rhsBatch := []
  wf := dot_S50x768_S768x768_S50x768_1_0_0_1_n_n_wf
def dot_S16x50x64_S16x64x50_S16x50x50_2_1_1_2_0_0 : DotDims S16x50x64 S16x64x50 S16x50x50 where
  lhsContracting := [2]
  rhsContracting := [1]
  lhsNonContracting := [1]
  rhsNonContracting := [2]
  lhsBatch := [0]
  rhsBatch := [0]
  wf := dot_S16x50x64_S16x64x50_S16x50x50_2_1_1_2_0_0_wf
def dot_S16x50x50_S16x50x64_S16x50x64_2_1_1_2_0_0 : DotDims S16x50x50 S16x50x64 S16x50x64 where
  lhsContracting := [2]
  rhsContracting := [1]
  lhsNonContracting := [1]
  rhsNonContracting := [2]
  lhsBatch := [0]
  rhsBatch := [0]
  wf := dot_S16x50x50_S16x50x64_S16x50x64_2_1_1_2_0_0_wf

abbrev win0_0 : Pipeline.Window sig grid0 :=
  Pipeline.Window.ofSpec (Memref.whole main_arg0) S16x50x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S50x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S16x12x50x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x50x768 : Shape := ⟨3, ![1024, 50, 768]⟩
abbrev S768x768 : Shape := ⟨2, ![768, 768]⟩
abbrev S768 : Shape := ⟨1, ![768]⟩
abbrev S1x1x768 : Shape := ⟨3, ![1, 1, 768]⟩
abbrev S1024x50x12x64 : Shape := ⟨4, ![1024, 50, 12, 64]⟩
abbrev S1024x12x50x64 : Shape := ⟨4, ![1024, 12, 50, 64]⟩
abbrev S50 : Shape := ⟨1, ![50]⟩
abbrev S50x1 : Shape := ⟨2, ![50, 1]⟩
abbrev S1x50 : Shape := ⟨2, ![1, 50]⟩
abbrev S50x50 : Shape := ⟨2, ![50, 50]⟩
abbrev S_ : Shape := ⟨0, ![]⟩
abbrev S1024x12x50x50 : Shape := ⟨4, ![1024, 12, 50, 50]⟩
abbrev S1x1x50x50 : Shape := ⟨4, ![1, 1, 50, 50]⟩
abbrev S1024x12 : Shape := ⟨2, ![1024, 12]⟩
abbrev S1024x12x1x1 : Shape := ⟨4, ![1024, 12, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S1024x50x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S1024x50x768, .f32⟩
  | .hbm, ⟨8, _⟩ => ⟨S1x1x768, .f32⟩
  | .hbm, ⟨9, _⟩ => ⟨S1024x50x768, .f32⟩
  | .hbm, ⟨10, _⟩ => ⟨S1024x50x768, .f32⟩
  | .hbm, ⟨11, _⟩ => ⟨S1024x50x12x64, .f32⟩
  | .hbm, ⟨12, _⟩ => ⟨S1024x12x50x64, .f32⟩
  | .hbm, ⟨13, _⟩ => ⟨S1024x50x768, .f32⟩
  | .hbm, ⟨14, _⟩ => ⟨S1x1x768, .f32⟩
  | .hbm, ⟨15, _⟩ => ⟨S1024x50x768, .f32⟩
  | .hbm, ⟨16, _⟩ => ⟨S1024x50x768, .f32⟩
  | .hbm, ⟨17, _⟩ => ⟨S1024x50x12x64, .f32⟩
  | .hbm, ⟨18, _⟩ => ⟨S1024x12x50x64, .f32⟩
  | .hbm, ⟨19, _⟩ => ⟨S1024x50x768, .f32⟩
  | .hbm, ⟨20, _⟩ => ⟨S1x1x768, .f32⟩
  | .hbm, ⟨21, _⟩ => ⟨S1024x50x768, .f32⟩
  | .hbm, ⟨22, _⟩ => ⟨S1024x50x768, .f32⟩
  | .hbm, ⟨23, _⟩ => ⟨S1024x50x12x64, .f32⟩
  | .hbm, ⟨24, _⟩ => ⟨S1024x12x50x64, .f32⟩
  | .hbm, ⟨25, _⟩ => ⟨S50, .i32⟩
  | .hbm, ⟨26, _⟩ => ⟨S50x1, .i32⟩
  | .hbm, ⟨27, _⟩ => ⟨S1x50, .i32⟩
  | .hbm, ⟨28, _⟩ => ⟨S50x50, .i32⟩
  | .hbm, ⟨29, _⟩ => ⟨S50x50, .i32⟩
  | .hbm, ⟨30, _⟩ => ⟨S50x50, .i32⟩
  | .hbm, ⟨31, _⟩ => ⟨S50x50, .i32⟩
  | .hbm, ⟨32, _⟩ => ⟨S50x50, .f32⟩
  | .hbm, ⟨33, _⟩ => ⟨S_, .f32⟩
  | .hbm, ⟨34, _⟩ => ⟨S50x50, .f32⟩
  | .hbm, ⟨35, _⟩ => ⟨S50x50, .f32⟩
  | .hbm, ⟨36, _⟩ => ⟨S_, .f32⟩
  | .hbm, ⟨37, _⟩ => ⟨S50x50, .f32⟩
  | .hbm, ⟨38, _⟩ => ⟨S50x50, .f32⟩
  | .hbm, ⟨39, _⟩ => ⟨S1024x12x50x50, .f32⟩
  | .hbm, ⟨40, _⟩ => ⟨S1x1x50x50, .f32⟩
  | .hbm, ⟨41, _⟩ => ⟨S1024x12x50x50, .f32⟩
  | .hbm, ⟨42, _⟩ => ⟨S1024x12x50x50, .f32⟩
  | .hbm, ⟨43, _⟩ => ⟨S1024x12x50x64, .f32⟩
  | .hbm, ⟨44, _⟩ => ⟨S1024x12x50x64, .f32⟩
  | .hbm, ⟨45, _⟩ => ⟨S_, .f32⟩
  | .hbm, ⟨46, _⟩ => ⟨S1024x12, .f32⟩
  | .hbm, ⟨47, _⟩ => ⟨S1024x12x1x1, .f32⟩
  | .hbm, ⟨48, _⟩ => ⟨S_, .f32⟩
  | .hbm, ⟨49, _⟩ => ⟨S1024x12x1x1, .f32⟩
  | .hbm, ⟨50, _⟩ => ⟨S1024x12x1x1, .f32⟩
  | .hbm, ⟨51, _⟩ => ⟨S_, .i32⟩
  | .hbm, ⟨52, _⟩ => ⟨S_, .f32⟩
  | .hbm, ⟨53, _⟩ => ⟨S1024x12, .f32⟩
  | .hbm, ⟨54, _⟩ => ⟨S1024x12x1x1, .f32⟩
  | .hbm, ⟨55, _⟩ => ⟨S_, .f32⟩
  | .hbm, ⟨56, _⟩ => ⟨S1024x12x1x1, .f32⟩
  | .hbm, ⟨57, _⟩ => ⟨S1024x12x1x1, .f32⟩
  | .hbm, ⟨58, _⟩ => ⟨S1024x12x50x64, .f32⟩
  | .hbm, ⟨59, _⟩ => ⟨S1024x12x50x64, .f32⟩
  | .hbm, ⟨60, _⟩ => ⟨S1024x12x50x64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1024x12, .f32⟩
  | .hbm, ⟨66, _⟩ => ⟨S1024x12x1x1, .f32⟩
  | .hbm, ⟨67, _⟩ => ⟨S1024x12x1x1, .f32⟩
  | .hbm, ⟨68, _⟩ => ⟨S1024x12x1x1, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S1024x12x1x1, .f32⟩
  | .hbm, ⟨74, _⟩ => ⟨S1024x12x1x1, .f32⟩
  | .hbm, ⟨75, _⟩ => ⟨S1024x12x50x64, .f32⟩
  | .hbm, ⟨76, _⟩ => ⟨S1024x12x50x64, .f32⟩
  | .hbm, ⟨77, _⟩ => ⟨S_, .f32⟩
  | .hbm, ⟨78, _⟩ => ⟨S1024x12x1x1, .f32⟩
  | .hbm, ⟨79, _⟩ => ⟨S1024x12x1x1, .f32⟩
  | .hbm, ⟨80, _⟩ => ⟨S1024x12x1x1, .f32⟩
  | .hbm, ⟨81, _⟩ => ⟨S1024x12x50x64, .f32⟩
  | .hbm, ⟨82, _⟩ => ⟨S1024x12x50x64, .f32⟩
  | .hbm, ⟨83, _⟩ => ⟨S1024x50x768, .f32⟩
  | _, _ => ⟨S1024x50x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_v12 : Ref sig .tc := ⟨.hbm, 68, rfl⟩
abbrev main_call0_cst_3 : Ref sig .tc := ⟨.hbm, 69, rfl⟩
abbrev main_call0_v13 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_3 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S1024x50x768_0_1_2 : S1x1x768.BroadcastsInDim S1024x50x768 (![0, 1, 2] : Fin 3 → Fin S1024x50x768.rank)
  shapeCasts_S1024x50x768_S1024x50x12x64 : S1024x50x768.ShapeCasts S1024x50x12x64
  transposes_S1024x50x12x64_S1024x12x50x64_0_2_1_3 : S1024x50x12x64.Transposes [0, 2, 1, 3] S1024x12x50x64
  bcast_S50_S50x1_0 : S50.BroadcastsInDim S50x1 (![0] : Fin 1 → Fin S50x1.rank)
  bcast_S50_S1x50_1 : S50.BroadcastsInDim S1x50 (![1] : Fin 1 → Fin S1x50.rank)
  bcast_S50x1_S50x50_0_1 : S50x1.BroadcastsInDim S50x50 (![0, 1] : Fin 2 → Fin S50x50.rank)
  bcast_S1x50_S50x50_0_1 : S1x50.BroadcastsInDim S50x50 (![0, 1] : Fin 2 → Fin S50x50.rank)
  bcast_S_S50x50 : S_.BroadcastsInDim S50x50 (![] : Fin 0 → Fin S50x50.rank)
  bcast_S50x50_S1x1x50x50_2_3 : S50x50.BroadcastsInDim S1x1x50x50 (![2, 3] : Fin 2 → Fin S1x1x50x50.rank)
  bcast_S1x1x50x50_S1024x12x50x50_0_1_2_3 : S1x1x50x50.BroadcastsInDim S1024x12x50x50 (![0, 1, 2, 3] : Fin 4 → Fin S1024x12x50x50.rank)
  reducesTo_S1024x12x50x64_S1024x12_d2_3 : S1024x12x50x64.ReducesTo [2, 3] S1024x12
  h_S_ : 0 < S_.numel
  bcast_S1024x12_S1024x12x1x1_0_1 : S1024x12.BroadcastsInDim S1024x12x1x1 (![0, 1] : Fin 2 → Fin S1024x12x1x1.rank)
  bcast_S_S1024x12x1x1 : S_.BroadcastsInDim S1024x12x1x1 (![] : Fin 0 → Fin S1024x12x1x1.rank)
  bcast_S1024x12x1x1_S1024x12x50x64_0_1_2_3 : S1024x12x1x1.BroadcastsInDim S1024x12x50x64 (![0, 1, 2, 3] : Fin 4 → Fin S1024x12x50x64.rank)
  shapeCasts_S1024x12x50x64_S1024x50x768 : S1024x12x50x64.ShapeCasts S1024x50x768
  dot_S1024x50x768_S768x768_S1024x50x768_2_1_01_0_n_n_wf : DotDims.WF S1024x50x768 S768x768 S1024x50x768 [2] [1] [0, 1] [0] [] []
  dot_S1024x12x50x64_S1024x12x50x64_S1024x12x50x50_3_3_2_2_01_01_wf : DotDims.WF S1024x12x50x64 S1024x12x50x64 S1024x12x50x50 [3] [3] [2] [2] [0, 1] [0, 1]
  dot_S1024x12x50x50_S1024x12x50x64_S1024x12x50x64_3_2_2_3_01_01_wf : DotDims.WF S1024x12x50x50 S1024x12x50x64 S1024x12x50x64 [3] [2] [2] [3] [0, 1] [0, 1]

variable [Facts₀]

def dot_S1024x50x768_S768x768_S1024x50x768_2_1_01_0_n_n : DotDims S1024x50x768 S768x768 S1024x50x768 where
  lhsContracting := [2]
  rhsContracting := [1]
  lhsNonContracting := [0, 1]
  rhsNonContracting := [0]
  lhsBatch := []
  rhsBatch := []
  wf := dot_S1024x50x768_S768x768_S1024x50x768_2_1_01_0_n_n_wf
def dot_S1024x12x50x64_S1024x12x50x64_S1024x12x50x50_3_3_2_2_01_01 : DotDims S1024x12x50x64 S1024x12x50x64 S1024x12x50x50 where
  lhsContracting := [3]
  rhsContracting := [3]
  lhsNonContracting := [2]
  rhsNonContracting := [2]
  lhsBatch := [0, 1]
  rhsBatch := [0, 1]
  wf := dot_S1024x12x50x64_S1024x12x50x64_S1024x12x50x50_3_3_2_2_01_01_wf
def dot_S1024x12x50x50_S1024x12x50x64_S1024x12x50x64_3_2_2_3_01_01 : DotDims S1024x12x50x50 S1024x12x50x64 S1024x12x50x64 where
  lhsContracting := [3]
  rhsContracting := [2]
  lhsNonContracting := [2]
  rhsNonContracting := [3]
  lhsBatch := [0, 1]
  rhsBatch := [0, 1]
  wf := dot_S1024x12x50x50_S1024x12x50x64_S1024x12x50x64_3_2_2_3_01_01_wf

class Facts : Prop extends Facts₀ where

variable [Facts]
-- ==== Proof.Spec.lean ====
/-
  The mathematics both programs compute, stated once over plain finite index types, with no program in sight.

  For a batch index `m`, a sequence position `s` and a feature `f`, a projection is
  `proj x wT b m s f = (∑ e, x m s e * wT e f) + b f` (a linear layer with the weight read transposed).
  The 768 features are 12 heads of 64 lanes: `col h d = 64 h + d`.  With a decay table `D s t`, the
  retention of head `h` is
  `att D q k v m h s d = (∑ t, ((∑ e, q m s (col h e) * k m t (col h e)) * D s t) * v m t (col h d)) + k m s (col h d)`,
  and the result is its group normalisation over the 50 x 64 tile of each (m, h): the mean is the tile's sum
  over 3200, the variance the sum of squared deviations over 3200, and each deviation is scaled by the
  inverse square root of (variance + eps).  One program multiplies by `rsqrt`, the other divides by
  `sqrt`; `kerOut_eq_refOut` says these agree on the extended reals, because variance + eps is positive
  (a sum of squares over a positive count, plus a positive constant) — no finiteness is used.
-/
import Idealize.ShloMosaic.PureOps.Ideal
import Idealize.ShloMosaic.PureOps.Ideal.Laws
import Idealize.ShloMosaic.Lib.ValueIdx

noncomputable section

namespace Cert.Spec

open Idealize.ShloMosaic

/-- The f32 words of the tile size 3200 and of eps = 1e-5 rounded to f32, as extended reals. -/
def c3200 : EReal := Ideal.ofBits .f32 0x45480000#32
def ceps : EReal := Ideal.ofBits .f32 0x3727C5AC#32

/-- Lane `d` of head `h` among the 768 features. -/
def col (h : Fin 12) (d : Fin 64) : Fin 768 := ⟨64 * h.val + d.val, by omega⟩

variable {M : Type}

/-- A linear layer with the weight read as `wT e f` (input feature first). -/
def proj (x : M → Fin 50 → Fin 768 → EReal) (wT : Fin 768 → Fin 768 → EReal) (b : Fin 768 → EReal)
    (m : M) (s : Fin 50) (f : Fin 768) : EReal :=
  (∑ e : Fin 768, x m s e * wT e f) + b f

/-- Retention of one head plus the key residual. -/
def att (D : Fin 50 → Fin 50 → EReal) (q k v : M → Fin 50 → Fin 768 → EReal)
    (m : M) (h : Fin 12) (s : Fin 50) (d : Fin 64) : EReal :=
  (∑ t : Fin 50, ((∑ e : Fin 64, q m s (col h e) * k m t (col h e)) * D s t) * v m t (col h d)) + k m s (col h d)

def mean (o : M → Fin 12 → Fin 50 → Fin 64 → EReal) (m : M) (h : Fin 12) : EReal :=
  Ideal.div (∑ s : Fin 50, ∑ d : Fin 64, o m h s d) c3200

def dev (o : M → Fin 12 → Fin 50 → Fin 64 → EReal) (m : M) (h : Fin 12) (s : Fin 50) (d : Fin 64) : EReal :=
  o m h s d - mean o m h

def var (o : M → Fin 12 → Fin 50 → Fin 64 → EReal) (m : M) (h : Fin 12) : EReal :=
  Ideal.div (∑ s : Fin 50, ∑ d : Fin 64, dev o m h s d * dev o m h s d) c3200

/-- The normalised tile, scaled by the inverse square root. -/
def kerOut (o : M → Fin 12 → Fin 50 → Fin 64 → EReal) (m : M) (h : Fin 12) (s : Fin 50) (d : Fin 64) : EReal :=
  dev o m h s d * Ideal.rsqrt (var o m h + ceps)

/-- The normalised tile, divided by the square root. -/
def refOut (o : M → Fin 12 → Fin 50 → Fin 64 → EReal) (m : M) (h : Fin 12) (s : Fin 50) (d : Fin 64) : EReal :=
  Ideal.div (dev o m h s d) (Ideal.sqrt (var o m h + ceps))

end Cert.Spec

end
-- ==== Proof.KBlock.lean ====
import proofs.«177034_j32727650795908_2_alg».proof.Proof.Gen.KernelIdeal.Frame
import proofs.«177034_j32727650795908_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

/-!
  From blocks to the whole array.

  The region runs over 64 grid points; point `t` reads rows `16 t … 16 t + 15` of the input (every other operand
  whole: the three transposed weights, the three biases, the decay table) and writes back rows
  `16 t … 16 t + 15` of the [1024, 12, 50, 64] result.  Entry (a, h, s, d) of what point `t` writes is the
  normalised retention of batch row `16 t + a`; it depends on that row of the input only, so the blocks are the
  restrictions of ONE function `G` of the whole arrays, the 64 blocks tile the result, and the result array ends
  holding `G`.  The program then reshapes it; the reshape is carried along unopened.
-/

namespace Cert.KernelIdeal.KValue

open Cert.KernelIdeal Cert.KernelIdeal.Gen

/-- The body's value at an index, as the specification's normalised retention of the block's operands
    (the statement the body's value proof establishes). -/
def BodyApply : Prop :=
  ∀ (c : Dev nD) (i : grid0.Coords) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S768x768 .bf16) (harg6 : arg6.IsWhole) (arg7 : Memref sig .tc .vmem S768 .f32) (harg7 : arg7.IsWhole) (arg8 : Memref sig .tc .vmem S50x50 .f32) (harg8 : arg8.IsWhole) (arg9 : Memref sig .tc .vmem S16x12x50x64 .f32) (harg9 : arg9.IsWhole) (arg10 : Memref sig .tc .vmem S16x50x768 .f32) (harg10 : arg10.IsWhole) (arg11 : Memref sig .tc .vmem S16x50x768 .f32) (harg11 : arg11.IsWhole) (arg12 : Memref sig .tc .vmem S16x50x768 .f32) (harg12 : arg12.IsWhole)
    (x0 : Vec Ideal S16x50x768 .f32) (x1 : Vec Ideal S768x768 .bf16) (x2 : Vec Ideal S768 .f32) (x3 : Vec Ideal S768x768 .bf16) (x4 : Vec Ideal S768 .f32) (x5 : Vec Ideal S768x768 .bf16) (x6 : Vec Ideal S768 .f32) (x7 : Vec Ideal S50x50 .f32)
    (a : Fin 16) (h : Fin 12) (s : Fin 50) (d : Fin 64),
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix4 a h s d)
      = Cert.Spec.kerOut (Cert.Spec.att (fun s t => x7 (ix2 s t))
          (Cert.Spec.proj (fun a s e => x0 (ix3 a s e)) (fun e f => x1 (ix2 e f)) (fun f => x2 (ix1 f)))
          (Cert.Spec.proj (fun a s e => x0 (ix3 a s e)) (fun e f => x3 (ix2 e f)) (fun f => x4 (ix1 f)))
          (Cert.Spec.proj (fun a s e => x0 (ix3 a s e)) (fun e f => x5 (ix2 e f)) (fun f => x6 (ix1 f)))) a h s d

/-- The result array as one function of the whole operand arrays (weights already transposed). -/
def G (X : S1024x50x768.Idx → EReal) (w1 : S768x768.Idx → EReal) (b1 : S768.Idx → EReal) (w2 : S768x768.Idx → EReal)
    (b2 : S768.Idx → EReal) (w3 : S768x768.Idx → EReal) (b3 : S768.Idx → EReal) (D : S50x50.Idx → EReal) :
    S1024x12x50x64.Idx → EReal := fun j =>
  Cert.Spec.kerOut (Cert.Spec.att (fun s t => D (ix2 s t))
      (Cert.Spec.proj (fun m s e => X (ix3 m s e)) (fun e f => w1 (ix2 e f)) (fun f => b1 (ix1 f)))
      (Cert.Spec.proj (fun m s e => X (ix3 m s e)) (fun e f => w2 (ix2 e f)) (fun f => b2 (ix1 f)))
      (Cert.Spec.proj (fun m s e => X (ix3 m s e)) (fun e f => w3 (ix2 e f)) (fun f => b3 (ix1 f))))
    (j 0) (j 1) (j 2) (j 3)

/-- Row `a` of block `tv` is row `16 tv + a` of the array. -/
def rowOf (tv : Nat) (htv : tv < 64) (a : Fin 16) : Fin 1024 := ⟨16 * tv + a.val, by have := a.isLt; omega⟩

/-- One block's value is the restriction of `G`: stated over plain variables, the block's operands related to the
    whole arrays by hypotheses. -/
theorem block_value (hbody : BodyApply) (c : Dev nD) (i : grid0.Coords) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S768x768 .bf16) (harg6 : arg6.IsWhole) (arg7 : Memref sig .tc .vmem S768 .f32) (harg7 : arg7.IsWhole) (arg8 : Memref sig .tc .vmem S50x50 .f32) (harg8 : arg8.IsWhole) (arg9 : Memref sig .tc .vmem S16x12x50x64 .f32) (harg9 : arg9.IsWhole) (arg10 : Memref sig .tc .vmem S16x50x768 .f32) (harg10 : arg10.IsWhole) (arg11 : Memref sig .tc .vmem S16x50x768 .f32) (harg11 : arg11.IsWhole) (arg12 : Memref sig .tc .vmem S16x50x768 .f32) (harg12 : arg12.IsWhole)
    (x0 : Vec Ideal S16x50x768 .f32) (x1 : Vec Ideal S768x768 .bf16) (x2 : Vec Ideal S768 .f32) (x3 : Vec Ideal S768x768 .bf16) (x4 : Vec Ideal S768 .f32) (x5 : Vec Ideal S768x768 .bf16) (x6 : Vec Ideal S768 .f32) (x7 : Vec Ideal S50x50 .f32)
    (X : S1024x50x768.Idx → EReal) (w1 : S768x768.Idx → EReal) (b1 : S768.Idx → EReal) (w2 : S768x768.Idx → EReal)
    (b2 : S768.Idx → EReal) (w3 : S768x768.Idx → EReal) (b3 : S768.Idx → EReal) (D : S50x50.Idx → EReal)
    (tv : Nat) (htv : tv < 64)
    (h0 : ∀ (a : Fin 16) (s : Fin 50) (e : Fin 768), x0 (ix3 a s e) = X (ix3 (rowOf tv htv a) s e))
    (h1 : ∀ (e f : Fin 768), x1 (ix2 e f) = w1 (ix2 e f)) (h2 : ∀ f : Fin 768, x2 (ix1 f) = b1 (ix1 f))
    (h3 : ∀ (e f : Fin 768), x3 (ix2 e f) = w2 (ix2 e f)) (h4 : ∀ f : Fin 768, x4 (ix1 f) = b2 (ix1 f))
    (h5 : ∀ (e f : Fin 768), x5 (ix2 e f) = w3 (ix2 e f)) (h6 : ∀ f : Fin 768, x6 (ix1 f) = b3 (ix1 f))
    (h7 : ∀ (s t : Fin 50), x7 (ix2 s t) = D (ix2 s t))
    (y : S16x12x50x64.Idx) (j : S1024x12x50x64.Idx)
    (hj0 : (j 0).val = 16 * tv + (y 0).val) (hj1 : (j 1).val = (y 1).val) (hj2 : (j 2).val = (y 2).val)
    (hj3 : (j 3).val = (y 3).val) :
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 y = G X w1 b1 w2 b2 w3 b3 D j := by
  obtain ⟨a, h, s, d, rfl⟩ : ∃ (a : Fin 16) (h : Fin 12) (s : Fin 50) (d : Fin 64), y = ix4 a h s d :=
    ⟨y 0, y 1, y 2, y 3, eq_ix4 y⟩
  obtain ⟨a', h', s', d', rfl⟩ : ∃ (a' : Fin 1024) (h' : Fin 12) (s' : Fin 50) (d' : Fin 64), j = ix4 a' h' s' d' :=
    ⟨j 0, j 1, j 2, j 3, eq_ix4 j⟩
  obtain rfl : a' = rowOf tv htv a := Fin.ext hj0
  obtain rfl : h' = h := Fin.ext hj1
  obtain rfl : s' = s := Fin.ext hj2
  obtain rfl : d' = d := Fin.ext hj3
  rw [hbody]
  unfold G
  simp only [h0, h1, h2, h3, h4, h5, h6, h7]
  rfl

end Cert.KernelIdeal.KValue

end
-- ==== Proof.KReads.lean ====
import proofs.«177034_j32727650795908_2_alg».proof.Proof.Gen.KernelIdeal.Frame
import proofs.«177034_j32727650795908_2_alg».proof.Proof.Spec
import proofs.«177034_j32727650795908_2_alg».proof.Proof.KBlock
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

/-!
  Each operand block read where the grid point says, what a point writes back, the cover, and the array.
-/

namespace Cert.KernelIdeal.KValue

open Cert.KernelIdeal Cert.KernelIdeal.Gen

variable (m : (ℓ : Loc nD τ sig) → Buf (Elt Ideal) ℓ) (ρ : Dev nD → PrngReg)

/-- The printed index maps over the grid: the input and the result move with the point along the batch axis;
    every other operand stays at block 0. -/
theorem idx_facts : ∀ t : Fin cfg0.N, win0_8.index t (0 : Fin 4) = t.val
    ∧ win0_8.index t (1 : Fin 4) = 0
    ∧ win0_8.index t (2 : Fin 4) = 0
    ∧ win0_8.index t (3 : Fin 4) = 0
    ∧ win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0 :=
  (by decide +kernel : ∀ t : Fin grid0.N, _)

/-- Row `a` of the input block at point `t` is row `16 t + a` of the input. -/
theorem blk0 (c : Dev nD) (t : Fin cfg0.N) (ht : t.val < 64) (a : Fin 16) (s : Fin 50) (e : Fin 768) :
    (iblk m c 0 t : S16x50x768.Idx → EReal) (ix3 a s e)
      = (V m c main_arg0 : S1024x50x768.Idx → EReal) (ix3 (rowOf t.val ht a) s e) := by
  unfold iblk
  rw [View.read_apply]
  show V m c main_arg0 (((cfg0.win 0).blk t).view.emb (ix3 a s e)) = V m c main_arg0 (ix3 (rowOf t.val ht a) s e)
  refine congrArg (V m c main_arg0) (funext fun b => Fin.ext ?_)
  obtain ⟨e0, e1, e2, e3, e4, e5, e6, e7, e8, e9, e10, e11, e12, e13, e14, e15, e16, e17⟩ := idx_facts t
  match b with
  | ⟨0, _⟩ => show win0_0.index t (0 : Fin 3) * 16 + 1 * a.val = 16 * t.val + a.val; omega
  | ⟨1, _⟩ => show win0_0.index t (1 : Fin 3) * 50 + 1 * s.val = s.val; omega
  | ⟨2, _⟩ => show win0_0.index t (2 : Fin 3) * 768 + 1 * e.val = e.val; omega

theorem blk1 (c : Dev nD) (t : Fin cfg0.N) (p q : Fin 768) :
    (iblk m c 1 t : S768x768.Idx → EReal) (ix2 p q) = (V m c main_v13 : S768x768.Idx → EReal) (ix2 p q) := by
  unfold iblk
  rw [View.read_apply]
  show V m c main_v13 (((cfg0.win 1).blk t).view.emb (ix2 p q)) = V m c main_v13 (ix2 p q)
  refine congrArg (V m c main_v13) (funext fun b => Fin.ext ?_)
  obtain ⟨e0, e1, e2, e3, e4, e5, e6, e7, e8, e9, e10, e11, e12, e13, e14, e15, e16, e17⟩ := idx_facts t
  match b with
  | ⟨0, _⟩ => show win0_1.index t (0 : Fin 2) * 768 + 1 * p.val = p.val; omega
  | ⟨1, _⟩ => show win0_1.index t (1 : Fin 2) * 768 + 1 * q.val = q.val; omega

theorem blk2 (c : Dev nD) (t : Fin cfg0.N) (p : Fin 768) :
    (iblk m c 2 t : S768.Idx → EReal) (ix1 p) = (V m c main_arg2 : S768.Idx → EReal) (ix1 p) := by
  unfold iblk
  rw [View.read_apply]
  show V m c main_arg2 (((cfg0.win 2).blk t).view.emb (ix1 p)) = V m c main_arg2 (ix1 p)
  refine congrArg (V m c main_arg2) (funext fun b => Fin.ext ?_)
  obtain ⟨e0, e1, e2, e3, e4, e5, e6, e7, e8, e9, e10, e11, e12, e13, e14, e15, e16, e17⟩ := idx_facts t
  match b with
  | ⟨0, _⟩ => show win0_2.index t (0 : Fin 1) * 768 + 1 * p.val = p.val; omega

theorem blk3 (c : Dev nD) (t : Fin cfg0.N) (p q : Fin 768) :
    (iblk m c 3 t : S768x768.Idx → EReal) (ix2 p q) = (V m c main_v15 : S768x768.Idx → EReal) (ix2 p q) := by
  unfold iblk
  rw [View.read_apply]
  show V m c main_v15 (((cfg0.win 3).blk t).view.emb (ix2 p q)) = V m c main_v15 (ix2 p q)
  refine congrArg (V m c main_v15) (funext fun b => Fin.ext ?_)
  obtain ⟨e0, e1, e2, e3, e4, e5, e6, e7, e8, e9, e10, e11, e12, e13, e14, e15, e16, e17⟩ := idx_facts t
  match b with
  | ⟨0, _⟩ => show win0_3.index t (0 : Fin 2) * 768 + 1 * p.val = p.val; omega
  | ⟨1, _⟩ => show win0_3.index t (1 : Fin 2) * 768 + 1 * q.val = q.val; omega

theorem blk4 (c : Dev nD) (t : Fin cfg0.N) (p : Fin 768) :
    (iblk m c 4 t : S768.Idx → EReal) (ix1 p) = (V m c main_arg4 : S768.Idx → EReal) (ix1 p) := by
  unfold iblk
  rw [View.read_apply]
  show V m c main_arg4 (((cfg0.win 4).blk t).view.emb (ix1 p)) = V m c main_arg4 (ix1 p)
  refine congrArg (V m c main_arg4) (funext fun b => Fin.ext ?_)
  obtain ⟨e0, e1, e2, e3, e4, e5, e6, e7, e8, e9, e10, e11, e12, e13, e14, e15, e16, e17⟩ := idx_facts t
  match b with
  | ⟨0, _⟩ => show win0_4.index t (0 : Fin 1) * 768 + 1 * p.val = p.val; omega

theorem blk5 (c : Dev nD) (t : Fin cfg0.N) (p q : Fin 768) :
    (iblk m c 5 t : S768x768.Idx → EReal) (ix2 p q) = (V m c main_v17 : S768x768.Idx → EReal) (ix2 p q) := by
  unfold iblk
  rw [View.read_apply]
  show V m c main_v17 (((cfg0.win 5).blk t).view.emb (ix2 p q)) = V m c main_v17 (ix2 p q)
  refine congrArg (V m c main_v17) (funext fun b => Fin.ext ?_)
  obtain ⟨e0, e1, e2, e3, e4, e5, e6, e7, e8, e9, e10, e11, e12, e13, e14, e15, e16, e17⟩ := idx_facts t
  match b with
  | ⟨0, _⟩ => show win0_5.index t (0 : Fin 2) * 768 + 1 * p.val = p.val; omega
  | ⟨1, _⟩ => show win0_5.index t (1 : Fin 2) * 768 + 1 * q.val = q.val; omega

theorem blk6 (c : Dev nD) (t : Fin cfg0.N) (p : Fin 768) :
    (iblk m c 6 t : S768.Idx → EReal) (ix1 p) = (V m c main_arg6 : S768.Idx → EReal) (ix1 p) := by
  unfold iblk
  rw [View.read_apply]
  show V m c main_arg6 (((cfg0.win 6).blk t).view.emb (ix1 p)) = V m c main_arg6 (ix1 p)
  refine congrArg (V m c main_arg6) (funext fun b => Fin.ext ?_)
  obtain ⟨e0, e1, e2, e3, e4, e5, e6, e7, e8, e9, e10, e11, e12, e13, e14, e15, e16, e17⟩ := idx_facts t
  match b with
  | ⟨0, _⟩ => show win0_6.index t (0 : Fin 1) * 768 + 1 * p.val = p.val; omega

theorem blk7 (c : Dev nD) (t : Fin cfg0.N) (p q : Fin 50) :
    (iblk m c 7 t : S50x50.Idx → EReal) (ix2 p q) = (V m c main_v11 : S50x50.Idx → EReal) (ix2 p q) := by
  unfold iblk
  rw [View.read_apply]
  show V m c main_v11 (((cfg0.win 7).blk t).view.emb (ix2 p q)) = V m c main_v11 (ix2 p q)
  refine congrArg (V m c main_v11) (funext fun b => Fin.ext ?_)
  obtain ⟨e0, e1, e2, e3, e4, e5, e6, e7, e8, e9, e10, e11, e12, e13, e14, e15, e16, e17⟩ := idx_facts t
  match b with
  | ⟨0, _⟩ => show win0_7.index t (0 : Fin 2) * 50 + 1 * p.val = p.val; omega
  | ⟨1, _⟩ => show win0_7.index t (1 : Fin 2) * 50 + 1 * q.val = q.val; omega

end Cert.KernelIdeal.KValue

end
-- ==== Proof.KArray.lean ====
import proofs.«177034_j32727650795908_2_alg».proof.Proof.Gen.KernelIdeal.Frame
import proofs.«177034_j32727650795908_2_alg».proof.Proof.Spec
import proofs.«177034_j32727650795908_2_alg».proof.Proof.KBlock
import proofs.«177034_j32727650795908_2_alg».proof.Proof.KReads
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

/-!
  What a grid point writes back is its block of `G`; the 64 blocks tile the result; so the result array ends
  holding `G` of the operand arrays as the region finds them.
-/

namespace Cert.KernelIdeal.KValue

open Cert.KernelIdeal Cert.KernelIdeal.Gen

variable (m : (ℓ : Loc nD τ sig) → Buf (Elt Ideal) ℓ) (ρ : Dev nD → PrngReg)

/-- What point `t` writes back is block `t` of `G` of the operand arrays. -/
theorem flushed_eq (hbody : BodyApply) (c : Dev nD) (t : Fin cfg0.N) :
    (dats m 0 c).flushed 8 t = ((cfg0.win 8).blk t).view.read (Elt Ideal) (G (V m c main_arg0) (V m c main_v13) (V m c main_arg2) (V m c main_v15) (V m c main_arg4) (V m c main_v17) (V m c main_arg6) (V m c main_v11)) := by
  have hN : cfg0.N = 64 := N_0
  have ht : t.val < 64 := by have := t.isLt; omega
  show (cfg0.win 8).cut (grid0.coords t) ((dats m 0 c).after 8 t) = _
  rw [after0_8]
  unfold outsAt0
  funext y
  rw [View.read_apply]
  obtain ⟨e0, e1, e2, e3, e4, e5, e6, e7, e8, e9, e10, e11, e12, e13, e14, e15, e16, e17⟩ := idx_facts t
  refine block_value hbody c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
    (V m c main_arg0) (V m c main_v13) (V m c main_arg2) (V m c main_v15) (V m c main_arg4) (V m c main_v17) (V m c main_arg6) (V m c main_v11) t.val ht
    (blk0 m c t ht) (blk1 m c t) (blk2 m c t) (blk3 m c t) (blk4 m c t) (blk5 m c t) (blk6 m c t) (blk7 m c t)
    y (((cfg0.win 8).blk t).view.emb y) ?_ ?_ ?_ ?_
  · show win0_8.index t (0 : Fin 4) * 16 + 1 * (y 0).val = 16 * t.val + (y 0).val; omega
  · show win0_8.index t (1 : Fin 4) * 12 + 1 * (y 1).val = (y 1).val; omega
  · show win0_8.index t (2 : Fin 4) * 50 + 1 * (y 2).val = (y 2).val; omega
  · show win0_8.index t (3 : Fin 4) * 64 + 1 * (y 3).val = (y 3).val; omega

/-- An index of the result is in point `t`'s block iff each coordinate is in the block's range on its axis. -/
theorem mem_blk (t : Fin cfg0.N) (i : S1024x12x50x64.Idx) :
    i ∈ ((cfg0.win 8).blk t).view.set ↔ ∀ a : Fin 4, win0_8.index t a * S16x12x50x64.size a ≤ (i a).val ∧ (i a).val < win0_8.index t a * S16x12x50x64.size a + S16x12x50x64.size a := by
  show i ∈ ((View.whole main_v18).slice (win0_8.rect t)).set ↔ _
  rw [View.set_slice_whole, Rect.mem_set_unit]
  exact Iff.rfl

/-- Every index of the result lies in the block of the point its batch row names. -/
theorem cover (i : S1024x12x50x64.Idx) :
    ∃ t : Fin cfg0.N, (cfg0.win 8).flush t = true ∧ i ∈ ((cfg0.win 8).blk t).view.set := by
  have hN : cfg0.N = 64 := N_0
  have hi0 : (i 0).val < 1024 := (i 0).isLt
  have hi1 : (i 1).val < 12 := (i 1).isLt
  have hi2 : (i 2).val < 50 := (i 2).isLt
  have hi3 : (i 3).val < 64 := (i 3).isLt
  refine ⟨⟨(i 0).val / 16, by omega⟩, flush0_8 _, ?_⟩
  rw [mem_blk]
  obtain ⟨e0, e1, e2, e3, e4, e5, e6, e7, e8, e9, e10, e11, e12, e13, e14, e15, e16, e17⟩ := idx_facts ⟨(i 0).val / 16, by omega⟩
  intro a
  match a with
  | ⟨0, _⟩ => show win0_8.index _ (0 : Fin 4) * 16 ≤ (i 0).val ∧ (i 0).val < win0_8.index _ (0 : Fin 4) * 16 + 16; rw [e0]; dsimp only; omega
  | ⟨1, _⟩ => show win0_8.index _ (1 : Fin 4) * 12 ≤ (i 1).val ∧ (i 1).val < win0_8.index _ (1 : Fin 4) * 12 + 12; rw [e1]; omega
  | ⟨2, _⟩ => show win0_8.index _ (2 : Fin 4) * 50 ≤ (i 2).val ∧ (i 2).val < win0_8.index _ (2 : Fin 4) * 50 + 50; rw [e2]; omega
  | ⟨3, _⟩ => show win0_8.index _ (3 : Fin 4) * 64 ≤ (i 3).val ∧ (i 3).val < win0_8.index _ (3 : Fin 4) * 64 + 64; rw [e3]; omega

/-- The result array after the region. -/
theorem final (hbody : BodyApply) (c : Dev nD) :
    (dats m 0 c).arrAt 8 cfg0.N = G (V m c main_arg0) (V m c main_v13) (V m c main_arg2) (V m c main_v15) (V m c main_arg4) (V m c main_v17) (V m c main_arg6) (V m c main_v11) :=
  (dats m 0 c).arrAt_eq_of_cover 8 (G (V m c main_arg0) (V m c main_v13) (V m c main_arg2) (V m c main_v15) (V m c main_arg4) (V m c main_v17) (V m c main_arg6) (V m c main_v11)) (fun t _ => flushed_eq m hbody c t) cover

end Cert.KernelIdeal.KValue

end
-- ==== Proof.KTail.lean ====
import proofs.«177034_j32727650795908_2_alg».proof.Proof.Gen.KernelIdeal.Frame
import proofs.«177034_j32727650795908_2_alg».proof.Proof.Spec
import proofs.«177034_j32727650795908_2_alg».proof.Proof.KBlock
import proofs.«177034_j32727650795908_2_alg».proof.Proof.KReads
import proofs.«177034_j32727650795908_2_alg».proof.Proof.KArray
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

/-!
  The operand arrays as the region finds them (the weights transposed on the host, the decay table computed on
  the host), the reshape after the region, and the program's run with its result named.
-/

namespace Cert.KernelIdeal.KValue

open Cert.KernelIdeal Cert.KernelIdeal.Gen

variable (m : (ℓ : Loc nD τ sig) → Buf (Elt Ideal) ℓ) (ρ : Dev nD → PrngReg)

/-- The decay table `1 / (1 + |s - t|)`, as the host operations before the region compute it (never opened:
    the reference computes it by the same operations). -/
def decayK : FVec Ideal S50x50 .f32 :=
  Host.divf (F := Ideal) (broadcastInDim S50x50 ![] bcast_S_S50x50 (constant (F := Ideal) S_ .f32 0x3F800000#32))
    (addf (broadcastInDim S50x50 ![] bcast_S_S50x50 (constant (F := Ideal) S_ .f32 0x3F800000#32))
      (sitofp .f32
        (absi
          (subi
            (broadcastInDim S50x50 ![0, 1] bcast_S50x1_S50x50_0_1
              (broadcastInDim S50x1 ![0] bcast_S50_S50x1_0 (iotaInDim S50 32 0)))
            (broadcastInDim S50x50 ![0, 1] bcast_S1x50_S50x50_0_1
              (broadcastInDim S1x50 ![1] bcast_S50_S1x50_1 (iotaInDim S50 32 0)))))))

theorem V_v11 (c : Dev nD) : (V m c main_v11 : S50x50.Idx → EReal) = decayK := by
  show StableHlo.after hostOps0 (fun b => m (c, b)) (Proc.devRef .tc main_v11) = _
  after_results
  rfl

theorem V_v13 (c : Dev nD) : (V m c main_v13 : S768x768.Idx → EReal) = (truncf (F := Ideal) .bf16 (transpose S768x768 [1, 0] ((m ((c.tc : Thread nD τ).loc main_arg1)) : S768x768.Idx → EReal) transposes_S768x768_S768x768_1_0) bitsLt_bf16_f32 : S768x768.Idx → EReal) := by
  show StableHlo.after hostOps0 (fun b => m (c, b)) (Proc.devRef .tc main_v13) = _
  after_results

theorem V_v15 (c : Dev nD) : (V m c main_v15 : S768x768.Idx → EReal) = (truncf (F := Ideal) .bf16 (transpose S768x768 [1, 0] ((m ((c.tc : Thread nD τ).loc main_arg3)) : S768x768.Idx → EReal) transposes_S768x768_S768x768_1_0) bitsLt_bf16_f32 : S768x768.Idx → EReal) := by
  show StableHlo.after hostOps0 (fun b => m (c, b)) (Proc.devRef .tc main_v15) = _
  after_results

theorem V_v17 (c : Dev nD) : (V m c main_v17 : S768x768.Idx → EReal) = (truncf (F := Ideal) .bf16 (transpose S768x768 [1, 0] ((m ((c.tc : Thread nD τ).loc main_arg5)) : S768x768.Idx → EReal) transposes_S768x768_S768x768_1_0) bitsLt_bf16_f32 : S768x768.Idx → EReal) := by
  show StableHlo.after hostOps0 (fun b => m (c, b)) (Proc.devRef .tc main_v17) = _
  after_results

/-- The reshape that ends the program, as a function of the region's result array. -/
def tailK (A : S1024x12x50x64.Idx → EReal) : S1024x50x768.Idx → EReal :=
  shapeCast S1024x50x768 A shapeCasts_S1024x12x50x64_S1024x50x768

/-- The region's result array in terms of the program's arguments. -/
theorem final_args (hbody : BodyApply) (c : Dev nD) :
    (dats m 0 c).arrAt 8 cfg0.N = (G (m ((c.tc : Thread nD τ).loc main_arg0)) (truncf (F := Ideal) .bf16 (transpose S768x768 [1, 0] ((m ((c.tc : Thread nD τ).loc main_arg1)) : S768x768.Idx → EReal) transposes_S768x768_S768x768_1_0) bitsLt_bf16_f32 : S768x768.Idx → EReal) (m ((c.tc : Thread nD τ).loc main_arg2)) (truncf (F := Ideal) .bf16 (transpose S768x768 [1, 0] ((m ((c.tc : Thread nD τ).loc main_arg3)) : S768x768.Idx → EReal) transposes_S768x768_S768x768_1_0) bitsLt_bf16_f32 : S768x768.Idx → EReal) (m ((c.tc : Thread nD τ).loc main_arg4)) (truncf (F := Ideal) .bf16 (transpose S768x768 [1, 0] ((m ((c.tc : Thread nD τ).loc main_arg5)) : S768x768.Idx → EReal) transposes_S768x768_S768x768_1_0) bitsLt_bf16_f32 : S768x768.Idx → EReal) (m ((c.tc : Thread nD τ).loc main_arg6)) decayK) := by
  rw [final m hbody c, V_v11, V_v13, V_v15, V_v17, V_main_arg0, V_main_arg2, V_main_arg4, V_main_arg6]

/-- The program's result buffer after the reshape. -/
theorem tail_eq (hbody : BodyApply) (c : Dev nD) :
    Pipeline.afterTail₀ cfgs (dats m) 0 (V0 m) [hostOps1] c main_v19 = tailK (G (m ((c.tc : Thread nD τ).loc main_arg0)) (truncf (F := Ideal) .bf16 (transpose S768x768 [1, 0] ((m ((c.tc : Thread nD τ).loc main_arg1)) : S768x768.Idx → EReal) transposes_S768x768_S768x768_1_0) bitsLt_bf16_f32 : S768x768.Idx → EReal) (m ((c.tc : Thread nD τ).loc main_arg2)) (truncf (F := Ideal) .bf16 (transpose S768x768 [1, 0] ((m ((c.tc : Thread nD τ).loc main_arg3)) : S768x768.Idx → EReal) transposes_S768x768_S768x768_1_0) bitsLt_bf16_f32 : S768x768.Idx → EReal) (m ((c.tc : Thread nD τ).loc main_arg4)) (truncf (F := Ideal) .bf16 (transpose S768x768 [1, 0] ((m ((c.tc : Thread nD τ).loc main_arg5)) : S768x768.Idx → EReal) transposes_S768x768_S768x768_1_0) bitsLt_bf16_f32 : S768x768.Idx → EReal) (m ((c.tc : Thread nD τ).loc main_arg6)) decayK) := by
  unfold Pipeline.afterTail₀
  show StableHlo.after hostOps1 _ (Proc.devRef .tc main_v19) = _
  after_results
  have hw : Pipeline.withArrays (cfgs 0).spec c (V0 m c) (fun w => (dats m 0 c).arrAt w (cfgs 0).N) (Proc.devRef .tc main_v18)
      = (G (m ((c.tc : Thread nD τ).loc main_arg0)) (truncf (F := Ideal) .bf16 (transpose S768x768 [1, 0] ((m ((c.tc : Thread nD τ).loc main_arg1)) : S768x768.Idx → EReal) transposes_S768x768_S768x768_1_0) bitsLt_bf16_f32 : S768x768.Idx → EReal) (m ((c.tc : Thread nD τ).loc main_arg2)) (truncf (F := Ideal) .bf16 (transpose S768x768 [1, 0] ((m ((c.tc : Thread nD τ).loc main_arg3)) : S768x768.Idx → EReal) transposes_S768x768_S768x768_1_0) bitsLt_bf16_f32 : S768x768.Idx → EReal) (m ((c.tc : Thread nD τ).loc main_arg4)) (truncf (F := Ideal) .bf16 (transpose S768x768 [1, 0] ((m ((c.tc : Thread nD τ).loc main_arg5)) : S768x768.Idx → EReal) transposes_S768x768_S768x768_1_0) bitsLt_bf16_f32 : S768x768.Idx → EReal) (m ((c.tc : Thread nD τ).loc main_arg6)) decayK) :=
    (Pipeline.withArrays_arr spec0 launch0.win.arr_inj c _ _ 8).trans (final_args m hbody c)
  rw [hw]
  rfl

/-- The run: every weakly fair execution terminates with the result at the reshape of `G` of the arguments,
    the arguments unchanged. -/
theorem run (hbody : BodyApply) : θ_run defs (onTc (τ := τ) (main (F := Ideal))) ⟨m, fun _ => 0, ρ⟩ (fun r => ∀ c : Dev nD,
      r.2.mem ((c.tc : Thread nD τ).loc main_v19) = tailK (G (m ((c.tc : Thread nD τ).loc main_arg0)) (truncf (F := Ideal) .bf16 (transpose S768x768 [1, 0] ((m ((c.tc : Thread nD τ).loc main_arg1)) : S768x768.Idx → EReal) transposes_S768x768_S768x768_1_0) bitsLt_bf16_f32 : S768x768.Idx → EReal) (m ((c.tc : Thread nD τ).loc main_arg2)) (truncf (F := Ideal) .bf16 (transpose S768x768 [1, 0] ((m ((c.tc : Thread nD τ).loc main_arg3)) : S768x768.Idx → EReal) transposes_S768x768_S768x768_1_0) bitsLt_bf16_f32 : S768x768.Idx → EReal) (m ((c.tc : Thread nD τ).loc main_arg4)) (truncf (F := Ideal) .bf16 (transpose S768x768 [1, 0] ((m ((c.tc : Thread nD τ).loc main_arg5)) : S768x768.Idx → EReal) transposes_S768x768_S768x768_1_0) bitsLt_bf16_f32 : S768x768.Idx → EReal) (m ((c.tc : Thread nD τ).loc main_arg6)) decayK)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v19 (Pipeline.mem_restRefs_of main_v19 (by decide) (by decide))).trans (tail_eq m hbody c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c)))⟩)
    (run_main m ρ)

end Cert.KernelIdeal.KValue

end
-- ==== Proof.KBodyDefs.lean ====
/-
  The arithmetic of the kernel body, written once as functions of the values it reads.

  One batch row's linear layer: the row block (a 1 x 50 x 768 tile) against a 768 x 768 weight read with the input
  feature first, plus the bias row.  One head: the 50 x 50 scores of the queries against the keys, weighted by the
  decay table, applied to the values, plus the keys; then the tile's normalisation: subtract the mean over the
  50 x 64 tile, multiply by the inverse square root of the mean squared deviation plus a constant.
-/
import proofs.«177034_j32727650795908_2_alg».proof.Proof.Gen.KernelIdeal.Frame
import Idealize.ShloMosaic.Lib.ValueLayout

set_option maxRecDepth 16384

noncomputable section

namespace Cert.KernelIdeal.KValue

open Idealize.ShloMosaic Idealize.SL.Sem
open Cert.KernelIdeal.Gen

variable {F : FTy → Type} [FloatOps F]

/-- A weight as the body holds it (a cast to its own shape). -/
def wOf (w : Vec F S768x768 .bf16) : FVec F S768x768 .bf16 :=
  shapeCast S768x768 w shapeCasts_S768x768_S768x768

/-- A row block as the product's left operand. -/
def rowBlock (xr : Vec F S1x50x768 .f32) : FVec F S50x768 .bf16 :=
  truncf .bf16 (shapeCast S50x768 xr shapeCasts_S1x50x768_S50x768) bitsLt_bf16_f32

/-- The linear layer before its result is viewed as a 1 x 50 x 768 block. -/
def projFlat (w : FVec F S768x768 .bf16) (b : Vec F S768 .f32) (xb : FVec F S50x768 .bf16) : FVec F S50x768 .f32 :=
  addf (matmul dot_S50x768_S768x768_S50x768_1_0_0_1_n_n none xb w (constant S50x768 .f32 0x00000000#32))
    (broadcastTo S50x768 (shapeCast S1x768 b shapeCasts_S768_S1x768) broadcasts_S1x768_S50x768)

/-- One batch row's linear layer. -/
def projRow (w : FVec F S768x768 .bf16) (b : Vec F S768 .f32) (xr : Vec F S1x50x768 .f32) : FVec F S1x50x768 .f32 :=
  shapeCast S1x50x768 (projFlat w b (rowBlock xr)) shapeCasts_S50x768_S1x50x768

/-- The decay table as the body holds it. -/
def dOf (D : Vec F S50x50 .f32) : FVec F S50x50 .f32 :=
  shapeCast S50x50 D shapeCasts_S50x50_S50x50

/-- The decayed scores of one head. -/
def scores (D : FVec F S50x50 .f32) (q k : Vec F S16x50x64 .f32) : FVec F S16x50x50 .f32 :=
  mulf
    (matmul dot_S16x50x64_S16x64x50_S16x50x50_2_1_1_2_0_0 none
      (truncf .bf16 q bitsLt_bf16_f32)
      (truncf .bf16 (transpose S16x64x50 [0, 2, 1] k transposes_S16x50x64_p0_2_1_S16x64x50) bitsLt_bf16_f32)
      (constant S16x50x50 .f32 0x00000000#32))
    (broadcastTo S16x50x50 (shapeCast S1x50x50 D shapeCasts_S50x50_S1x50x50) broadcasts_S1x50x50_S16x50x50)

/-- The retention of one head plus the key residual. -/
def retain (D : FVec F S50x50 .f32) (q k v k2 : Vec F S16x50x64 .f32) : FVec F S16x50x64 .f32 :=
  addf
    (matmul dot_S16x50x50_S16x50x64_S16x50x64_2_1_1_2_0_0 none
      (truncf .bf16 (scores D q k) bitsLt_bf16_f32) (truncf .bf16 v bitsLt_bf16_f32)
      (constant S16x50x64 .f32 0x00000000#32))
    k2

/-- The sum of each 50 x 64 tile, kept as a 16 x 1 x 1 array. -/
def tileSum (o : FVec F S16x50x64 .f32) : FVec F S16x1x1 .f32 :=
  shapeCast S16x1x1
    (multiReduction .add [1] S16x1
      (shapeCast S16x50x1 (multiReduction .add [2] S16x50 o 0x00000000#32 reduces_S16x50x64_S16x50 (.inl rfl) rfl)
        shapeCasts_S16x50_S16x50x1)
      0x00000000#32 reduces_S16x50x1_S16x1 (.inl rfl) rfl)
    shapeCasts_S16x1_S16x1x1

/-- The mean of each tile. -/
def tileMean (o : FVec F S16x50x64 .f32) : FVec F S16x1x1 .f32 :=
  divf (tileSum o) (broadcast S16x1x1 (Scalar.ofBits .f32 0x45480000#32))

/-- The deviations from the tile's mean. -/
def centred (o : FVec F S16x50x64 .f32) : FVec F S16x50x64 .f32 :=
  subf o (broadcastTo S16x50x64 (tileMean o) broadcasts_S16x1x1_S16x50x64)

/-- The inverse square root of the mean squared deviation plus the constant. -/
def invStd (o : FVec F S16x50x64 .f32) : FVec F S16x1x1 .f32 :=
  rsqrt (addf (tileMean (mulf (centred o) (centred o))) (broadcast S16x1x1 (Scalar.ofBits .f32 0x3727C5AC#32)))

/-- The normalised tiles, viewed as one head's block of the output. -/
def normed (o : FVec F S16x50x64 .f32) : FVec F S16x1x50x64 .f32 :=
  shapeCast S16x1x50x64
    (mulf (centred o) (broadcastTo S16x50x64 (invStd o) broadcasts_S16x1x1_S16x50x64))
    shapeCasts_S16x50x64_S16x1x50x64

/-- One head's block of the output from the decay table and the head's slices. -/
def headOut (D : FVec F S50x50 .f32) (q k v k2 : Vec F S16x50x64 .f32) : FVec F S16x1x50x64 .f32 :=
  normed (retain D q k v k2)

end Cert.KernelIdeal.KValue

end
-- ==== Proof.KBodyIdx.lean ====
/-
  The body's arithmetic read at an index, at the ideal instance: every product is a finite sum over its contracted
  axis, every reduction a finite sum over its dropped axis, every change of shape a renaming of the index.
-/
import proofs.«177034_j32727650795908_2_alg».proof.Proof.KBodyDefs
import proofs.«177034_j32727650795908_2_alg».proof.Proof.Spec

set_option maxRecDepth 16384

noncomputable section

namespace Cert.KernelIdeal.KValue

open Idealize.ShloMosaic Idealize.SL.Sem
open Cert.KernelIdeal.Gen

open Idealize.ShloMosaic.ValueIdx

/-! ## The three products -/

/-- The linear layer's product at an index: the sum over the 768 input features. -/
theorem proj_matmul_apply (x : FVec Ideal S50x768 .bf16) (y : FVec Ideal S768x768 .bf16) (s : Fin 50) (f : Fin 768) :
    matmul dot_S50x768_S768x768_S50x768_1_0_0_1_n_n none x y (constant (F := Ideal) S50x768 .f32 0x00000000#32) (ix2 s f)
      = ∑ e : Fin 768, x (ix2 s e) * y (ix2 e f) := by
  refine (Ideal.matmul_constant_zero_apply dot_S50x768_S768x768_S50x768_1_0_0_1_n_n none x y (ix2 s f)).trans ?_
  rw [← Equiv.sum_comp (contrEquiv1 dot_S50x768_S768x768_S50x768_1_0_0_1_n_n 768 rfl rfl).symm]
  refine Finset.sum_congr rfl fun e _ => ?_
  have hl : dot_S50x768_S768x768_S50x768_1_0_0_1_n_n.lhsIdx (ix2 s f)
      ((contrEquiv1 dot_S50x768_S768x768_S50x768_1_0_0_1_n_n 768 rfl rfl).symm e) = ix2 s e := by
    funext c
    match c with
    | ⟨0, _⟩ => exact Fin.ext rfl
    | ⟨1, _⟩ =>
      exact Fin.ext ((DotDims.lhsIdx_val_of_single _ (cl := (1 : Fin 2)) rfl _ _).trans
        (contrEquiv1_symm_val dot_S50x768_S768x768_S50x768_1_0_0_1_n_n 768 rfl rfl e))
  have hr : dot_S50x768_S768x768_S50x768_1_0_0_1_n_n.rhsIdx (ix2 s f)
      ((contrEquiv1 dot_S50x768_S768x768_S50x768_1_0_0_1_n_n 768 rfl rfl).symm e) = ix2 e f := by
    funext c
    match c with
    | ⟨0, _⟩ =>
      exact Fin.ext ((DotDims.rhsIdx_val_of_single _ (cr := (0 : Fin 2)) rfl _ _).trans
        (contrEquiv1_symm_val dot_S50x768_S768x768_S50x768_1_0_0_1_n_n 768 rfl rfl e))
    | ⟨1, _⟩ => exact Fin.ext rfl
  rw [hl, hr]

/-- The scores' product at an index: the sum over the 64 lanes of the head. -/
theorem scores_matmul_apply (x : FVec Ideal S16x50x64 .bf16) (y : FVec Ideal S16x64x50 .bf16) (a : Fin 16) (s t : Fin 50) :
    matmul dot_S16x50x64_S16x64x50_S16x50x50_2_1_1_2_0_0 none x y (constant (F := Ideal) S16x50x50 .f32 0x00000000#32) (ix3 a s t)
      = ∑ e : Fin 64, x (ix3 a s e) * y (ix3 a e t) := by
  refine (Ideal.matmul_constant_zero_apply dot_S16x50x64_S16x64x50_S16x50x50_2_1_1_2_0_0 none x y (ix3 a s t)).trans ?_
  rw [← Equiv.sum_comp (contrEquiv1 dot_S16x50x64_S16x64x50_S16x50x50_2_1_1_2_0_0 64 rfl rfl).symm]
  refine Finset.sum_congr rfl fun e _ => ?_
  have hl : dot_S16x50x64_S16x64x50_S16x50x50_2_1_1_2_0_0.lhsIdx (ix3 a s t)
      ((contrEquiv1 dot_S16x50x64_S16x64x50_S16x50x50_2_1_1_2_0_0 64 rfl rfl).symm e) = ix3 a s e := by
    funext c
    match c with
    | ⟨0, _⟩ => exact Fin.ext rfl
    | ⟨1, _⟩ => exact Fin.ext rfl
    | ⟨2, _⟩ =>
      exact Fin.ext ((DotDims.lhsIdx_val_of_single _ (cl := (2 : Fin 3)) rfl _ _).trans
        (contrEquiv1_symm_val dot_S16x50x64_S16x64x50_S16x50x50_2_1_1_2_0_0 64 rfl rfl e))
  have hr : dot_S16x50x64_S16x64x50_S16x50x50_2_1_1_2_0_0.rhsIdx (ix3 a s t)
      ((contrEquiv1 dot_S16x50x64_S16x64x50_S16x50x50_2_1_1_2_0_0 64 rfl rfl).symm e) = ix3 a e t := by
    funext c
    match c with
    | ⟨0, _⟩ => exact Fin.ext rfl
    | ⟨1, _⟩ =>
      exact Fin.ext ((DotDims.rhsIdx_val_of_single _ (cr := (1 : Fin 3)) rfl _ _).trans
        (contrEquiv1_symm_val dot_S16x50x64_S16x64x50_S16x50x50_2_1_1_2_0_0 64 rfl rfl e))
    | ⟨2, _⟩ => exact Fin.ext rfl
  rw [hl, hr]

/-- The product with the values at an index: the sum over the 50 positions. -/
theorem values_matmul_apply (x : FVec Ideal S16x50x50 .bf16) (y : FVec Ideal S16x50x64 .bf16) (a : Fin 16) (s : Fin 50) (d : Fin 64) :
    matmul dot_S16x50x50_S16x50x64_S16x50x64_2_1_1_2_0_0 none x y (constant (F := Ideal) S16x50x64 .f32 0x00000000#32) (ix3 a s d)
      = ∑ e : Fin 50, x (ix3 a s e) * y (ix3 a e d) := by
  refine (Ideal.matmul_constant_zero_apply dot_S16x50x50_S16x50x64_S16x50x64_2_1_1_2_0_0 none x y (ix3 a s d)).trans ?_
  rw [← Equiv.sum_comp (contrEquiv1 dot_S16x50x50_S16x50x64_S16x50x64_2_1_1_2_0_0 50 rfl rfl).symm]
  refine Finset.sum_congr rfl fun e _ => ?_
  have hl : dot_S16x50x50_S16x50x64_S16x50x64_2_1_1_2_0_0.lhsIdx (ix3 a s d)
      ((contrEquiv1 dot_S16x50x50_S16x50x64_S16x50x64_2_1_1_2_0_0 50 rfl rfl).symm e) = ix3 a s e := by
    funext c
    match c with
    | ⟨0, _⟩ => exact Fin.ext rfl
    | ⟨1, _⟩ => exact Fin.ext rfl
    | ⟨2, _⟩ =>
      exact Fin.ext ((DotDims.lhsIdx_val_of_single _ (cl := (2 : Fin 3)) rfl _ _).trans
        (contrEquiv1_symm_val dot_S16x50x50_S16x50x64_S16x50x64_2_1_1_2_0_0 50 rfl rfl e))
  have hr : dot_S16x50x50_S16x50x64_S16x50x64_2_1_1_2_0_0.rhsIdx (ix3 a s d)
      ((contrEquiv1 dot_S16x50x50_S16x50x64_S16x50x64_2_1_1_2_0_0 50 rfl rfl).symm e) = ix3 a e d := by
    funext c
    match c with
    | ⟨0, _⟩ => exact Fin.ext rfl
    | ⟨1, _⟩ =>
      exact Fin.ext ((DotDims.rhsIdx_val_of_single _ (cr := (1 : Fin 3)) rfl _ _).trans
        (contrEquiv1_symm_val dot_S16x50x50_S16x50x64_S16x50x64_2_1_1_2_0_0 50 rfl rfl e))
    | ⟨2, _⟩ => exact Fin.ext rfl
  rw [hl, hr]

/-! ## Changes of shape the library does not name -/

section Layout
variable {α : Type}

/-- A 16 x 50 array viewed 16 x 50 x 1. -/
theorem cast_16x50_16x50x1_apply (x : S16x50.Idx → α) (h : S16x50.ShapeCasts S16x50x1) (a : Fin 16) (s : Fin 50)
    (u : Fin 1) : shapeCast S16x50x1 x h (ix3 a s u) = x (ix2 a s) :=
  shapeCast_apply x h _ _ (by
    have hu : u.val = 0 := by omega
    rw [Shape.rowMajor_val_three, Shape.rowMajor_val_two]
    show a.val * 50 + s.val = (a.val * 50 + s.val) * 1 + u.val
    omega)

/-- A 16 x 1 array viewed 16 x 1 x 1. -/
theorem cast_16x1_16x1x1_apply (x : S16x1.Idx → α) (h : S16x1.ShapeCasts S16x1x1) (a : Fin 16) (u v : Fin 1) :
    shapeCast S16x1x1 x h (ix3 a u v) = x (ix2 a u) :=
  shapeCast_apply x h _ _ (by
    have hv : v.val = 0 := by omega
    rw [Shape.rowMajor_val_three, Shape.rowMajor_val_two]
    show a.val * 1 + u.val = (a.val * 1 + u.val) * 1 + v.val
    omega)

/-- A 16 x 50 x 64 array viewed 16 x 1 x 50 x 64. -/
theorem cast_16x50x64_16x1x50x64_apply (x : S16x50x64.Idx → α) (h : S16x50x64.ShapeCasts S16x1x50x64) (a : Fin 16)
    (u : Fin 1) (s : Fin 50) (d : Fin 64) : shapeCast S16x1x50x64 x h (ix4 a u s d) = x (ix3 a s d) :=
  shapeCast_apply x h _ _ (by
    have hu : u.val = 0 := by omega
    rw [Shape.rowMajor_val_four, Shape.rowMajor_val_three]
    show (a.val * 50 + s.val) * 64 + d.val = ((a.val * 1 + u.val) * 50 + s.val) * 64 + d.val
    omega)

/-- One value per batch row spread over the row's 50 x 64 tile. -/
theorem bcast_16x1x1_16x50x64_apply (x : S16x1x1.Idx → α) (h : S16x1x1.Broadcasts S16x50x64) (a : Fin 16) (s : Fin 50)
    (d : Fin 64) : broadcastTo S16x50x64 x h (ix3 a s d) = x (ix3 a (0 : Fin 1) (0 : Fin 1)) := by
  refine broadcastTo_apply x h (ix3 a s d) (ix3 a (0 : Fin 1) (0 : Fin 1)) fun ax => ?_
  match ax with
  | ⟨0, _⟩ => rfl
  | ⟨1, _⟩ => rfl
  | ⟨2, _⟩ => rfl

/-- One 50 x 50 table spread over the 16 batch rows. -/
theorem bcast_1x50x50_16x50x50_apply (x : S1x50x50.Idx → α) (h : S1x50x50.Broadcasts S16x50x50) (a : Fin 16)
    (s t : Fin 50) : broadcastTo S16x50x50 x h (ix3 a s t) = x (ix3 (0 : Fin 1) s t) := by
  refine broadcastTo_apply x h (ix3 a s t) (ix3 (0 : Fin 1) s t) fun ax => ?_
  match ax with
  | ⟨0, _⟩ => rfl
  | ⟨1, _⟩ => rfl
  | ⟨2, _⟩ => rfl

end Layout

/-! ## The two sums of the normalisation -/

/-- The lane sum. -/
theorem sum_lanes_apply (o : FVec Ideal S16x50x64 .f32) (a : Fin 16) (s : Fin 50) :
    multiReduction (F := Ideal) .add [2] S16x50 o 0x00000000#32 reduces_S16x50x64_S16x50 (.inl rfl) rfl (ix2 a s)
      = ∑ d : Fin 64, o (ix3 a s d) := by
  refine (Ideal.multiReduction_add_single o _ reduces_S16x50x64_S16x50 (.inl rfl) rfl (ix2 a s)).trans ?_
  refine Finset.sum_congr rfl fun d _ => congrArg o ?_
  funext c
  match c with
  | ⟨0, _⟩ => exact Fin.ext rfl
  | ⟨1, _⟩ => exact Fin.ext rfl
  | ⟨2, _⟩ => exact Fin.ext rfl

/-- The sum over the positions. -/
theorem sum_rows_apply (o : FVec Ideal S16x50x1 .f32) (a : Fin 16) (u : Fin 1) :
    multiReduction (F := Ideal) .add [1] S16x1 o 0x00000000#32 reduces_S16x50x1_S16x1 (.inl rfl) rfl (ix2 a u)
      = ∑ s : Fin 50, o (ix3 a s u) := by
  refine (Ideal.multiReduction_add_single o _ reduces_S16x50x1_S16x1 (.inl rfl) rfl (ix2 a u)).trans ?_
  refine Finset.sum_congr rfl fun s _ => congrArg o ?_
  funext c
  match c with
  | ⟨0, _⟩ => exact Fin.ext rfl
  | ⟨1, _⟩ => exact Fin.ext rfl
  | ⟨2, _⟩ => exact Fin.ext rfl

/-! ## The body's functions at an index -/

/-- One batch row's linear layer at an index. -/
theorem projRow_apply (w : FVec Ideal S768x768 .bf16) (b : Vec Ideal S768 .f32) (xr : Vec Ideal S1x50x768 .f32)
    (u : Fin 1) (s : Fin 50) (f : Fin 768) :
    projRow w b xr (ix3 u s f) = (∑ e : Fin 768, xr (ix3 (0 : Fin 1) s e) * w (ix2 e f)) + b (ix1 f) := by
  unfold projRow projFlat rowBlock
  refine (shapeCast_ab_1ab_apply _ _ u s f).trans ?_
  refine (addf_apply _ _ _).trans ?_
  refine congrArg₂ (· + ·) ((proj_matmul_apply _ _ s f).trans ?_) ?_
  · refine Finset.sum_congr rfl fun e _ => congrArg (· * w (ix2 e f)) ?_
    exact (truncf_apply (ψ := .bf16) _ bitsLt_bf16_f32 _).trans (shapeCast_1ab_ab_apply _ _ s e)
  · exact (broadcastTo_1b_ab_apply _ _ s f).trans (shapeCast_a_1a_apply _ _ (0 : Fin 1) f)

/-- The decayed scores at an index. -/
theorem scores_apply (D : FVec Ideal S50x50 .f32) (q k : Vec Ideal S16x50x64 .f32) (a : Fin 16) (s t : Fin 50) :
    scores D q k (ix3 a s t) = (∑ e : Fin 64, q (ix3 a s e) * k (ix3 a t e)) * D (ix2 s t) := by
  unfold scores
  refine (mulf_apply _ _ _).trans ?_
  refine congrArg₂ (· * ·) ((scores_matmul_apply _ _ a s t).trans ?_) ?_
  · refine Finset.sum_congr rfl fun e _ => congrArg₂ (· * ·) (truncf_apply (ψ := .bf16) _ bitsLt_bf16_f32 _) ?_
    exact (truncf_apply (ψ := .bf16) _ bitsLt_bf16_f32 _).trans (transpose_ix3_021_apply _ _ a e t)
  · exact (bcast_1x50x50_16x50x50_apply _ _ a s t).trans (shapeCast_ab_1ab_apply _ _ (0 : Fin 1) s t)

/-- The retention plus the key residual at an index. -/
theorem retain_apply (D : FVec Ideal S50x50 .f32) (q k v k2 : Vec Ideal S16x50x64 .f32) (a : Fin 16) (s : Fin 50)
    (d : Fin 64) :
    retain D q k v k2 (ix3 a s d)
      = (∑ t : Fin 50, ((∑ e : Fin 64, q (ix3 a s e) * k (ix3 a t e)) * D (ix2 s t)) * v (ix3 a t d))
        + k2 (ix3 a s d) := by
  unfold retain
  refine (addf_apply _ _ _).trans ?_
  refine congrArg (· + k2 (ix3 a s d)) ((values_matmul_apply _ _ a s d).trans ?_)
  refine Finset.sum_congr rfl fun t _ => congrArg₂ (· * ·) ?_ (truncf_apply (ψ := .bf16) _ bitsLt_bf16_f32 _)
  exact (truncf_apply (ψ := .bf16) _ bitsLt_bf16_f32 _).trans (scores_apply D q k a s t)

/-- The tile's sum. -/
theorem tileSum_apply (o : FVec Ideal S16x50x64 .f32) (a : Fin 16) (u v : Fin 1) :
    tileSum o (ix3 a u v) = ∑ s : Fin 50, ∑ d : Fin 64, o (ix3 a s d) := by
  unfold tileSum
  refine (cast_16x1_16x1x1_apply _ _ a u v).trans ?_
  refine (sum_rows_apply _ a u).trans ?_
  refine Finset.sum_congr rfl fun s _ => ?_
  exact (cast_16x50_16x50x1_apply _ _ a s u).trans (sum_lanes_apply o a s)

/-- The tile's mean. -/
theorem tileMean_apply (o : FVec Ideal S16x50x64 .f32) (a : Fin 16) (u v : Fin 1) :
    tileMean o (ix3 a u v) = Ideal.div (∑ s : Fin 50, ∑ d : Fin 64, o (ix3 a s d)) Cert.Spec.c3200 := by
  unfold tileMean
  refine (divf_apply _ _ _).trans ?_
  exact congrArg (Ideal.div · Cert.Spec.c3200) (tileSum_apply o a u v)

/-- The deviation from the tile's mean. -/
theorem centred_apply (o : FVec Ideal S16x50x64 .f32) (a : Fin 16) (s : Fin 50) (d : Fin 64) :
    centred o (ix3 a s d)
      = o (ix3 a s d) - Ideal.div (∑ s : Fin 50, ∑ d : Fin 64, o (ix3 a s d)) Cert.Spec.c3200 := by
  unfold centred
  refine (subf_apply _ _ _).trans ?_
  exact congrArg (o (ix3 a s d) - ·) ((bcast_16x1x1_16x50x64_apply _ _ a s d).trans (tileMean_apply o a 0 0))

/-- The normalised tile is the shared specification's, read on the tile alone. -/
theorem normed_apply (o : FVec Ideal S16x50x64 .f32) (a : Fin 16) (u : Fin 1) (s : Fin 50) (d : Fin 64) (h : Fin 12) :
    normed o (ix4 a u s d) = Cert.Spec.kerOut (fun m (_ : Fin 12) s d => o (ix3 m s d)) a h s d := by
  unfold normed invStd
  refine (cast_16x50x64_16x1x50x64_apply _ _ a u s d).trans ?_
  refine (mulf_apply _ _ _).trans ?_
  unfold Cert.Spec.kerOut Cert.Spec.var Cert.Spec.dev Cert.Spec.mean
  refine congrArg₂ (· * ·) (centred_apply o a s d) ?_
  refine (bcast_16x1x1_16x50x64_apply _ _ a s d).trans ?_
  show Ideal.rsqrt (tileMean (mulf (centred o) (centred o)) (ix3 a 0 0) + Cert.Spec.ceps) = _
  refine congrArg (fun z => Ideal.rsqrt (z + Cert.Spec.ceps)) ((tileMean_apply _ a 0 0).trans ?_)
  refine congrArg (Ideal.div · Cert.Spec.c3200) ?_
  refine Finset.sum_congr rfl fun s' _ => Finset.sum_congr rfl fun d' _ => ?_
  exact (mulf_apply _ _ _).trans (congrArg₂ (· * ·) (centred_apply o a s' d') (centred_apply o a s' d'))

/-- One head's block at an index. -/
theorem headOut_apply (D : FVec Ideal S50x50 .f32) (q k v k2 : Vec Ideal S16x50x64 .f32) (a : Fin 16) (u : Fin 1)
    (s : Fin 50) (d : Fin 64) (h : Fin 12) :
    headOut D q k v k2 (ix4 a u s d)
      = Cert.Spec.kerOut (fun m (_ : Fin 12) s d =>
          (∑ t : Fin 50, ((∑ e : Fin 64, q (ix3 m s e) * k (ix3 m t e)) * D (ix2 s t)) * v (ix3 m t d))
            + k2 (ix3 m s d)) a h s d := by
  unfold headOut
  refine (normed_apply _ a u s d h).trans ?_
  exact congrArg (fun o => Cert.Spec.kerOut o a h s d)
    (funext fun m => funext fun _ => funext fun s => funext fun d => retain_apply D q k v k2 m s d)

end Cert.KernelIdeal.KValue

end
-- ==== Proof.KBodyScratch.lean ====
/-
  What the three scratch buffers hold after the sixteen row stores: at (a, s, f) the linear layer of batch row a,
  position s, feature f.  Each store's payload is one row's layer; the sixteen rows tile the buffer; a later load of
  the 64 columns of head h reads the layer at the features 64 h + e.
-/
import proofs.«177034_j32727650795908_2_alg».proof.Proof.KBodyIdx
import Idealize.ShloMosaic.Lib.WholeRead

set_option maxRecDepth 16384

noncomputable section

namespace Cert.KernelIdeal.KValue

open Idealize.ShloMosaic Idealize.SL.Sem
open Cert.KernelIdeal.Gen

open Idealize.ShloMosaic.ValueIdx Idealize.ShloMosaic.Tactic

/-- A load of a whole buffer held at the contents that read `x` reads `x`. -/
theorem wholeLoad {S : Shape} {e : EltTy} (arg : Memref sig .tc .vmem S e) (harg : arg.IsWhole) (x : Vec Ideal S e)
    (off : Fin S.rank → ℕ) (h0 : off = fun _ => 0) (inb : ∀ a, off a + S.size a ≤ S.size a) :
    View.readAt (Elt Ideal) arg.view (Rect.unit (s := S) off S.size inb).toLoadRect (harg.unread x) = x := by
  subst h0
  funext j
  refine (harg.readAt_unread x _ j).trans (congrArg x ?_)
  funext a
  exact Fin.ext (by show 0 + 1 * (j a).val = (j a).val; omega)

/-- Row `i`'s rectangle places (u, s, e) at (i, s, e). -/
theorem rowRect_emb (off : Fin 3 → ℕ) (inb : ∀ a, off a + S1x50x768.size a ≤ S16x50x768.size a) (i : Fin 16)
    (hoff : off = ![i.val, 0, 0]) (u : Fin 1) (s : Fin 50) (e : Fin 768) :
    (Rect.unit (s := S16x50x768) off S1x50x768.size inb).emb (ix3 u s e) = ix3 i s e := by
  subst hoff
  funext c
  match c with
  | ⟨0, _⟩ => exact Fin.ext (by show i.val + 1 * u.val = i.val; omega)
  | ⟨1, _⟩ => exact Fin.ext (by show 0 + 1 * s.val = s.val; omega)
  | ⟨2, _⟩ => exact Fin.ext (by show 0 + 1 * e.val = e.val; omega)

/-- The linear layer as a function of the scratch buffer's index. -/
def projG (x0 : Vec Ideal S16x50x768 .f32) (w : Vec Ideal S768x768 .bf16) (b : Vec Ideal S768 .f32) :
    S16x50x768.Idx → EReal :=
  fun y => Cert.Spec.proj (fun a s e => x0 (ix3 a s e)) (fun e f => w (ix2 e f)) (fun f => b (ix1 f)) (y 0) (y 1) (y 2)

/-- One row store's payload is the layer on its rectangle. -/
theorem row_piece (arg1 : Memref sig .tc .vmem S16x50x768 .f32) (harg1 : arg1.IsWhole) (x0 : Vec Ideal S16x50x768 .f32)
    (argW : Memref sig .tc .vmem S768x768 .bf16) (hargW : argW.IsWhole) (w : Vec Ideal S768x768 .bf16)
    (argB : Memref sig .tc .vmem S768 .f32) (hargB : argB.IsWhole) (b : Vec Ideal S768 .f32)
    (off : Fin 3 → ℕ) (inb : ∀ a, off a + S1x50x768.size a ≤ S16x50x768.size a) (i : Fin 16)
    (hoff : off = ![i.val, 0, 0]) :
    ∀ x : S1x50x768.Idx,
      projRow
        (wOf (View.readAt (Elt Ideal) argW.view (Rect.unit ![0, 0] S768x768.size inb_S768x768_S768x768_0_0).toLoadRect
          (hargW.unread w)))
        (View.readAt (Elt Ideal) argB.view (Rect.unit ![0] S768.size inb_S768_S768_0).toLoadRect (hargB.unread b))
        (View.readAt (Elt Ideal) arg1.view (Rect.unit (s := S16x50x768) off S1x50x768.size inb).toLoadRect
          (harg1.unread x0)) x
      = projG x0 w b ((Rect.unit (s := S16x50x768) off S1x50x768.size inb).emb x) := by
  intro x
  obtain ⟨u, s, f, rfl⟩ : ∃ (u : Fin 1) (s : Fin 50) (f : Fin 768), x = ix3 u s f := ⟨x 0, x 1, x 2, eq_ix3 x⟩
  rw [rowRect_emb off inb i hoff u s f, projRow_apply,
    wholeLoad argW hargW w ![0, 0] (funext fun a => match a with | ⟨0, _⟩ => rfl | ⟨1, _⟩ => rfl) _,
    wholeLoad argB hargB b ![0] (funext fun a => match a with | ⟨0, _⟩ => rfl) _]
  show _ = (∑ e : Fin 768, x0 (ix3 i s e) * w (ix2 e f)) + b (ix1 f)
  refine congrArg (· + b (ix1 f)) (Finset.sum_congr rfl fun e _ => ?_)
  refine congrArg₂ (· * ·) ?_ (congrFun (shapeCast_self w _) (ix2 e f))
  refine (harg1.readAt_unread x0 _ _).trans (congrArg x0 ?_)
  exact rowRect_emb off inb i hoff 0 s e

/-- The sixteen stores of the first scratch buffer. -/
theorem HS0_pieces (c : Dev nD) (arg1 : Memref sig .tc .vmem S16x50x768 .f32) (harg1 : arg1.IsWhole)
    (arg2 : Memref sig .tc .vmem S768x768 .bf16) (harg2 : arg2.IsWhole) (arg3 : Memref sig .tc .vmem S768 .f32) (harg3 : arg3.IsWhole)
    (x0 : Vec Ideal S16x50x768 .f32) (x1 : Vec Ideal S768x768 .bf16) (x2 : Vec Ideal S768 .f32) :
    ∀ p ∈ kernelRun0_A.sl.HS0_16 (F := Ideal) c arg1 harg1 arg2 harg2 arg3 harg3 x0 x1 x2,
      ∀ x : p.1.shape.Idx, p.2 x = projG x0 x1 x2 (p.1.emb x) := by
  unfold kernelRun0_A.sl.HS0_16
  refine List.forall_mem_cons.2 ⟨row_piece arg1 harg1 x0 arg2 harg2 x1 arg3 harg3 x2 ![15, 0, 0] inb_S16x50x768_S1x50x768_15_0_0 15 rfl, ?_⟩
  refine List.forall_mem_cons.2 ⟨row_piece arg1 harg1 x0 arg2 harg2 x1 arg3 harg3 x2 ![14, 0, 0] inb_S16x50x768_S1x50x768_14_0_0 14 rfl, ?_⟩
  refine List.forall_mem_cons.2 ⟨row_piece arg1 harg1 x0 arg2 harg2 x1 arg3 harg3 x2 ![13, 0, 0] inb_S16x50x768_S1x50x768_13_0_0 13 rfl, ?_⟩
  refine List.forall_mem_cons.2 ⟨row_piece arg1 harg1 x0 arg2 harg2 x1 arg3 harg3 x2 ![12, 0, 0] inb_S16x50x768_S1x50x768_12_0_0 12 rfl, ?_⟩
  refine List.forall_mem_cons.2 ⟨row_piece arg1 harg1 x0 arg2 harg2 x1 arg3 harg3 x2 ![11, 0, 0] inb_S16x50x768_S1x50x768_11_0_0 11 rfl, ?_⟩
  refine List.forall_mem_cons.2 ⟨row_piece arg1 harg1 x0 arg2 harg2 x1 arg3 harg3 x2 ![10, 0, 0] inb_S16x50x768_S1x50x768_10_0_0 10 rfl, ?_⟩
  refine List.forall_mem_cons.2 ⟨row_piece arg1 harg1 x0 arg2 harg2 x1 arg3 harg3 x2 ![9, 0, 0] inb_S16x50x768_S1x50x768_9_0_0 9 rfl, ?_⟩
  refine List.forall_mem_cons.2 ⟨row_piece arg1 harg1 x0 arg2 harg2 x1 arg3 harg3 x2 ![8, 0, 0] inb_S16x50x768_S1x50x768_8_0_0 8 rfl, ?_⟩
  refine List.forall_mem_cons.2 ⟨row_piece arg1 harg1 x0 arg2 harg2 x1 arg3 harg3 x2 ![7, 0, 0] inb_S16x50x768_S1x50x768_7_0_0 7 rfl, ?_⟩
  refine List.forall_mem_cons.2 ⟨row_piece arg1 harg1 x0 arg2 harg2 x1 arg3 harg3 x2 ![6, 0, 0] inb_S16x50x768_S1x50x768_6_0_0 6 rfl, ?_⟩
  refine List.forall_mem_cons.2 ⟨row_piece arg1 harg1 x0 arg2 harg2 x1 arg3 harg3 x2 ![5, 0, 0] inb_S16x50x768_S1x50x768_5_0_0 5 rfl, ?_⟩
  refine List.forall_mem_cons.2 ⟨row_piece arg1 harg1 x0 arg2 harg2 x1 arg3 harg3 x2 ![4, 0, 0] inb_S16x50x768_S1x50x768_4_0_0 4 rfl, ?_⟩
  refine List.forall_mem_cons.2 ⟨row_piece arg1 harg1 x0 arg2 harg2 x1 arg3 harg3 x2 ![3, 0, 0] inb_S16x50x768_S1x50x768_3_0_0 3 rfl, ?_⟩
  refine List.forall_mem_cons.2 ⟨row_piece arg1 harg1 x0 arg2 harg2 x1 arg3 harg3 x2 ![2, 0, 0] inb_S16x50x768_S1x50x768_2_0_0 2 rfl, ?_⟩
  refine List.forall_mem_cons.2 ⟨row_piece arg1 harg1 x0 arg2 harg2 x1 arg3 harg3 x2 ![1, 0, 0] inb_S16x50x768_S1x50x768_1_0_0 1 rfl, ?_⟩
  refine List.forall_mem_cons.2 ⟨row_piece arg1 harg1 x0 arg2 harg2 x1 arg3 harg3 x2 ![0, 0, 0] inb_S16x50x768_S1x50x768_0_0_0 0 rfl, ?_⟩
  exact fun p hp => absurd hp List.not_mem_nil

/-- They tile the buffer. -/
theorem HS0_cover (c : Dev nD) (arg1 : Memref sig .tc .vmem S16x50x768 .f32) (harg1 : arg1.IsWhole)
    (arg2 : Memref sig .tc .vmem S768x768 .bf16) (harg2 : arg2.IsWhole) (arg3 : Memref sig .tc .vmem S768 .f32) (harg3 : arg3.IsWhole)
    (x0 : Vec Ideal S16x50x768 .f32) (x1 : Vec Ideal S768x768 .bf16) (x2 : Vec Ideal S768 .f32) (y : S16x50x768.Idx) :
    ∃ p ∈ kernelRun0_A.sl.HS0_16 (F := Ideal) c arg1 harg1 arg2 harg2 arg3 harg3 x0 x1 x2, y ∈ p.1.set :=
  View.cover_of_tiledL (kernelRun0_A.sl.HS0_16 (F := Ideal) c arg1 harg1 arg2 harg2 arg3 harg3 x0 x1 x2) S1x50x768.size (by sl_kernel_rfl) y

/-- The sixteen stores of the second scratch buffer. -/
theorem HS1_pieces (c : Dev nD) (arg1 : Memref sig .tc .vmem S16x50x768 .f32) (harg1 : arg1.IsWhole)
    (arg4 : Memref sig .tc .vmem S768x768 .bf16) (harg4 : arg4.IsWhole) (arg5 : Memref sig .tc .vmem S768 .f32) (harg5 : arg5.IsWhole)
    (x0 : Vec Ideal S16x50x768 .f32) (x3 : Vec Ideal S768x768 .bf16) (x4 : Vec Ideal S768 .f32) :
    ∀ p ∈ kernelRun0_A.sl.HS1_16 (F := Ideal) c arg1 harg1 arg4 harg4 arg5 harg5 x0 x3 x4,
      ∀ x : p.1.shape.Idx, p.2 x = projG x0 x3 x4 (p.1.emb x) := by
  unfold kernelRun0_A.sl.HS1_16
  refine List.forall_mem_cons.2 ⟨row_piece arg1 harg1 x0 arg4 harg4 x3 arg5 harg5 x4 ![15, 0, 0] inb_S16x50x768_S1x50x768_15_0_0 15 rfl, ?_⟩
  refine List.forall_mem_cons.2 ⟨row_piece arg1 harg1 x0 arg4 harg4 x3 arg5 harg5 x4 ![14, 0, 0] inb_S16x50x768_S1x50x768_14_0_0 14 rfl, ?_⟩
  refine List.forall_mem_cons.2 ⟨row_piece arg1 harg1 x0 arg4 harg4 x3 arg5 harg5 x4 ![13, 0, 0] inb_S16x50x768_S1x50x768_13_0_0 13 rfl, ?_⟩
  refine List.forall_mem_cons.2 ⟨row_piece arg1 harg1 x0 arg4 harg4 x3 arg5 harg5 x4 ![12, 0, 0] inb_S16x50x768_S1x50x768_12_0_0 12 rfl, ?_⟩
  refine List.forall_mem_cons.2 ⟨row_piece arg1 harg1 x0 arg4 harg4 x3 arg5 harg5 x4 ![11, 0, 0] inb_S16x50x768_S1x50x768_11_0_0 11 rfl, ?_⟩
  refine List.forall_mem_cons.2 ⟨row_piece arg1 harg1 x0 arg4 harg4 x3 arg5 harg5 x4 ![10, 0, 0] inb_S16x50x768_S1x50x768_10_0_0 10 rfl, ?_⟩
  refine List.forall_mem_cons.2 ⟨row_piece arg1 harg1 x0 arg4 harg4 x3 arg5 harg5 x4 ![9, 0, 0] inb_S16x50x768_S1x50x768_9_0_0 9 rfl, ?_⟩
  refine List.forall_mem_cons.2 ⟨row_piece arg1 harg1 x0 arg4 harg4 x3 arg5 harg5 x4 ![8, 0, 0] inb_S16x50x768_S1x50x768_8_0_0 8 rfl, ?_⟩
  refine List.forall_mem_cons.2 ⟨row_piece arg1 harg1 x0 arg4 harg4 x3 arg5 harg5 x4 ![7, 0, 0] inb_S16x50x768_S1x50x768_7_0_0 7 rfl, ?_⟩
  refine List.forall_mem_cons.2 ⟨row_piece arg1 harg1 x0 arg4 harg4 x3 arg5 harg5 x4 ![6, 0, 0] inb_S16x50x768_S1x50x768_6_0_0 6 rfl, ?_⟩
  refine List.forall_mem_cons.2 ⟨row_piece arg1 harg1 x0 arg4 harg4 x3 arg5 harg5 x4 ![5, 0, 0] inb_S16x50x768_S1x50x768_5_0_0 5 rfl, ?_⟩
  refine List.forall_mem_cons.2 ⟨row_piece arg1 harg1 x0 arg4 harg4 x3 arg5 harg5 x4 ![4, 0, 0] inb_S16x50x768_S1x50x768_4_0_0 4 rfl, ?_⟩
  refine List.forall_mem_cons.2 ⟨row_piece arg1 harg1 x0 arg4 harg4 x3 arg5 harg5 x4 ![3, 0, 0] inb_S16x50x768_S1x50x768_3_0_0 3 rfl, ?_⟩
  refine List.forall_mem_cons.2 ⟨row_piece arg1 harg1 x0 arg4 harg4 x3 arg5 harg5 x4 ![2, 0, 0] inb_S16x50x768_S1x50x768_2_0_0 2 rfl, ?_⟩
  refine List.forall_mem_cons.2 ⟨row_piece arg1 harg1 x0 arg4 harg4 x3 arg5 harg5 x4 ![1, 0, 0] inb_S16x50x768_S1x50x768_1_0_0 1 rfl, ?_⟩
  refine List.forall_mem_cons.2 ⟨row_piece arg1 harg1 x0 arg4 harg4 x3 arg5 harg5 x4 ![0, 0, 0] inb_S16x50x768_S1x50x768_0_0_0 0 rfl, ?_⟩
  exact fun p hp => absurd hp List.not_mem_nil

/-- They tile the buffer. -/
theorem HS1_cover (c : Dev nD) (arg1 : Memref sig .tc .vmem S16x50x768 .f32) (harg1 : arg1.IsWhole)
    (arg4 : Memref sig .tc .vmem S768x768 .bf16) (harg4 : arg4.IsWhole) (arg5 : Memref sig .tc .vmem S768 .f32) (harg5 : arg5.IsWhole)
    (x0 : Vec Ideal S16x50x768 .f32) (x3 : Vec Ideal S768x768 .bf16) (x4 : Vec Ideal S768 .f32) (y : S16x50x768.Idx) :
    ∃ p ∈ kernelRun0_A.sl.HS1_16 (F := Ideal) c arg1 harg1 arg4 harg4 arg5 harg5 x0 x3 x4, y ∈ p.1.set :=
  View.cover_of_tiledL (kernelRun0_A.sl.HS1_16 (F := Ideal) c arg1 harg1 arg4 harg4 arg5 harg5 x0 x3 x4) S1x50x768.size (by sl_kernel_rfl) y

/-- The sixteen stores of the third scratch buffer. -/
theorem HS2_pieces (c : Dev nD) (arg1 : Memref sig .tc .vmem S16x50x768 .f32) (harg1 : arg1.IsWhole)
    (arg6 : Memref sig .tc .vmem S768x768 .bf16) (harg6 : arg6.IsWhole) (arg7 : Memref sig .tc .vmem S768 .f32) (harg7 : arg7.IsWhole)
    (x0 : Vec Ideal S16x50x768 .f32) (x5 : Vec Ideal S768x768 .bf16) (x6 : Vec Ideal S768 .f32) :
    ∀ p ∈ kernelRun0_A.sl.HS2_16 (F := Ideal) c arg1 harg1 arg6 harg6 arg7 harg7 x0 x5 x6,
      ∀ x : p.1.shape.Idx, p.2 x = projG x0 x5 x6 (p.1.emb x) := by
  unfold kernelRun0_A.sl.HS2_16
  refine List.forall_mem_cons.2 ⟨row_piece arg1 harg1 x0 arg6 harg6 x5 arg7 harg7 x6 ![15, 0, 0] inb_S16x50x768_S1x50x768_15_0_0 15 rfl, ?_⟩
  refine List.forall_mem_cons.2 ⟨row_piece arg1 harg1 x0 arg6 harg6 x5 arg7 harg7 x6 ![14, 0, 0] inb_S16x50x768_S1x50x768_14_0_0 14 rfl, ?_⟩
  refine List.forall_mem_cons.2 ⟨row_piece arg1 harg1 x0 arg6 harg6 x5 arg7 harg7 x6 ![13, 0, 0] inb_S16x50x768_S1x50x768_13_0_0 13 rfl, ?_⟩
  refine List.forall_mem_cons.2 ⟨row_piece arg1 harg1 x0 arg6 harg6 x5 arg7 harg7 x6 ![12, 0, 0] inb_S16x50x768_S1x50x768_12_0_0 12 rfl, ?_⟩
  refine List.forall_mem_cons.2 ⟨row_piece arg1 harg1 x0 arg6 harg6 x5 arg7 harg7 x6 ![11, 0, 0] inb_S16x50x768_S1x50x768_11_0_0 11 rfl, ?_⟩
  refine List.forall_mem_cons.2 ⟨row_piece arg1 harg1 x0 arg6 harg6 x5 arg7 harg7 x6 ![10, 0, 0] inb_S16x50x768_S1x50x768_10_0_0 10 rfl, ?_⟩
  refine List.forall_mem_cons.2 ⟨row_piece arg1 harg1 x0 arg6 harg6 x5 arg7 harg7 x6 ![9, 0, 0] inb_S16x50x768_S1x50x768_9_0_0 9 rfl, ?_⟩
  refine List.forall_mem_cons.2 ⟨row_piece arg1 harg1 x0 arg6 harg6 x5 arg7 harg7 x6 ![8, 0, 0] inb_S16x50x768_S1x50x768_8_0_0 8 rfl, ?_⟩
  refine List.forall_mem_cons.2 ⟨row_piece arg1 harg1 x0 arg6 harg6 x5 arg7 harg7 x6 ![7, 0, 0] inb_S16x50x768_S1x50x768_7_0_0 7 rfl, ?_⟩
  refine List.forall_mem_cons.2 ⟨row_piece arg1 harg1 x0 arg6 harg6 x5 arg7 harg7 x6 ![6, 0, 0] inb_S16x50x768_S1x50x768_6_0_0 6 rfl, ?_⟩
  refine List.forall_mem_cons.2 ⟨row_piece arg1 harg1 x0 arg6 harg6 x5 arg7 harg7 x6 ![5, 0, 0] inb_S16x50x768_S1x50x768_5_0_0 5 rfl, ?_⟩
  refine List.forall_mem_cons.2 ⟨row_piece arg1 harg1 x0 arg6 harg6 x5 arg7 harg7 x6 ![4, 0, 0] inb_S16x50x768_S1x50x768_4_0_0 4 rfl, ?_⟩
  refine List.forall_mem_cons.2 ⟨row_piece arg1 harg1 x0 arg6 harg6 x5 arg7 harg7 x6 ![3, 0, 0] inb_S16x50x768_S1x50x768_3_0_0 3 rfl, ?_⟩
  refine List.forall_mem_cons.2 ⟨row_piece arg1 harg1 x0 arg6 harg6 x5 arg7 harg7 x6 ![2, 0, 0] inb_S16x50x768_S1x50x768_2_0_0 2 rfl, ?_⟩
  refine List.forall_mem_cons.2 ⟨row_piece arg1 harg1 x0 arg6 harg6 x5 arg7 harg7 x6 ![1, 0, 0] inb_S16x50x768_S1x50x768_1_0_0 1 rfl, ?_⟩
  refine List.forall_mem_cons.2 ⟨row_piece arg1 harg1 x0 arg6 harg6 x5 arg7 harg7 x6 ![0, 0, 0] inb_S16x50x768_S1x50x768_0_0_0 0 rfl, ?_⟩
  exact fun p hp => absurd hp List.not_mem_nil

/-- They tile the buffer. -/
theorem HS2_cover (c : Dev nD) (arg1 : Memref sig .tc .vmem S16x50x768 .f32) (harg1 : arg1.IsWhole)
    (arg6 : Memref sig .tc .vmem S768x768 .bf16) (harg6 : arg6.IsWhole) (arg7 : Memref sig .tc .vmem S768 .f32) (harg7 : arg7.IsWhole)
    (x0 : Vec Ideal S16x50x768 .f32) (x5 : Vec Ideal S768x768 .bf16) (x6 : Vec Ideal S768 .f32) (y : S16x50x768.Idx) :
    ∃ p ∈ kernelRun0_A.sl.HS2_16 (F := Ideal) c arg1 harg1 arg6 harg6 arg7 harg7 x0 x5 x6, y ∈ p.1.set :=
  View.cover_of_tiledL (kernelRun0_A.sl.HS2_16 (F := Ideal) c arg1 harg1 arg6 harg6 arg7 harg7 x0 x5 x6) S1x50x768.size (by sl_kernel_rfl) y

/-- A head's 64 columns sit at the features 64 h + e. -/
theorem sliceRect_idx (off : Fin 3 → ℕ) (inb : ∀ a, off a + S16x50x64.size a ≤ S16x50x768.size a) (h : Fin 12)
    (hoff : off = ![0, 0, 64 * h.val]) (a : Fin 16) (s : Fin 50) (e : Fin 64) :
    (Rect.unit (s := S16x50x768) off S16x50x64.size inb).toLoadRect.idx (ix3 a s e) = ix3 a s (Cert.Spec.col h e) := by
  subst hoff
  funext c
  match c with
  | ⟨0, _⟩ => exact Fin.ext (by show 0 + 1 * a.val = a.val; omega)
  | ⟨1, _⟩ => exact Fin.ext (by show 0 + 1 * s.val = s.val; omega)
  | ⟨2, _⟩ => exact Fin.ext (by show 64 * h.val + 1 * e.val = 64 * h.val + e.val; omega)

/-- A load of head h's columns of a scratch buffer whose stores all agree with one function reads that function. -/
theorem slice_apply {κ : Kind} {sp : Space} (v : View sig κ sp S16x50x768 .f32)
    (L : List (View.Piece (Elt Ideal) S16x50x768 .f32)) (G : S16x50x768.Idx → EReal)
    (hL : ∀ p ∈ L, ∀ x : p.1.shape.Idx, p.2 x = G (p.1.emb x)) (hcov : ∀ y, ∃ p ∈ L, y ∈ p.1.set)
    (off : Fin 3 → ℕ) (inb : ∀ a, off a + S16x50x64.size a ≤ S16x50x768.size a) (h : Fin 12)
    (hoff : off = ![0, 0, 64 * h.val]) (a : Fin 16) (s : Fin 50) (e : Fin 64) :
    v.readCov L (Rect.unit (s := S16x50x768) off S16x50x64.size inb).toLoadRect (ix3 a s e)
      = G (ix3 a s (Cert.Spec.col h e)) := by
  rw [View.readCov_eq_canon']
  show View.canon L ((Rect.unit (s := S16x50x768) off S16x50x64.size inb).toLoadRect.idx (ix3 a s e)) = _
  rw [sliceRect_idx off inb h hoff a s e]
  exact View.canon_apply_of_pieces G L hL _ (hcov _)

end Cert.KernelIdeal.KValue

end
-- ==== Proof.KBody.lean ====
/-
  The body's value at an index.  The run leaves the output block as twelve stores, one per head; head h's payload is
  the normalised retention of the head's three column slices of the scratch buffers, which hold the three linear
  layers; so at (a, h, s, d) the block is the shared specification's normalised retention of the block's operands.
-/
import proofs.«177034_j32727650795908_2_alg».proof.Proof.KBodyScratch
import proofs.«177034_j32727650795908_2_alg».proof.Proof.KBlock

set_option maxRecDepth 16384

noncomputable section

namespace Cert.KernelIdeal.KValue

open Idealize.ShloMosaic Idealize.SL.Sem
open Cert.KernelIdeal.Gen

open Idealize.ShloMosaic.ValueIdx Idealize.ShloMosaic.Tactic

/-- Head `h`'s rectangle places (a, u, s, d) at (a, h, s, d). -/
theorem headRect_emb (off : Fin 4 → ℕ) (inb : ∀ a, off a + S16x1x50x64.size a ≤ S16x12x50x64.size a) (h : Fin 12)
    (hoff : off = ![0, h.val, 0, 0]) (a : Fin 16) (u : Fin 1) (s : Fin 50) (d : Fin 64) :
    (Rect.unit (s := S16x12x50x64) off S16x1x50x64.size inb).emb (ix4 a u s d) = ix4 a h s d := by
  subst hoff
  funext c
  match c with
  | ⟨0, _⟩ => exact Fin.ext (by show 0 + 1 * a.val = a.val; omega)
  | ⟨1, _⟩ => exact Fin.ext (by show h.val + 1 * u.val = h.val; omega)
  | ⟨2, _⟩ => exact Fin.ext (by show 0 + 1 * s.val = s.val; omega)
  | ⟨3, _⟩ => exact Fin.ext (by show 0 + 1 * d.val = d.val; omega)

/-- The normalised tile at (a, h) reads the retention at (a, h) only. -/
theorem kerOut_congr (o o' : Fin 16 → Fin 12 → Fin 50 → Fin 64 → EReal) (a : Fin 16) (h : Fin 12)
    (H : ∀ s d, o a h s d = o' a h s d) (s : Fin 50) (d : Fin 64) :
    Cert.Spec.kerOut o a h s d = Cert.Spec.kerOut o' a h s d := by
  unfold Cert.Spec.kerOut Cert.Spec.var Cert.Spec.dev Cert.Spec.mean
  simp only [H]

/-- The output block as one function of its index. -/
def outG (x0 : Vec Ideal S16x50x768 .f32) (x1 : Vec Ideal S768x768 .bf16) (x2 : Vec Ideal S768 .f32) (x3 : Vec Ideal S768x768 .bf16) (x4 : Vec Ideal S768 .f32) (x5 : Vec Ideal S768x768 .bf16) (x6 : Vec Ideal S768 .f32) (x7 : Vec Ideal S50x50 .f32) : S16x12x50x64.Idx → EReal :=
  fun y => Cert.Spec.kerOut (Cert.Spec.att (fun s t => x7 (ix2 s t))
      (Cert.Spec.proj (fun a s e => x0 (ix3 a s e)) (fun e f => x1 (ix2 e f)) (fun f => x2 (ix1 f)))
      (Cert.Spec.proj (fun a s e => x0 (ix3 a s e)) (fun e f => x3 (ix2 e f)) (fun f => x4 (ix1 f)))
      (Cert.Spec.proj (fun a s e => x0 (ix3 a s e)) (fun e f => x5 (ix2 e f)) (fun f => x6 (ix1 f))))
    (y 0) (y 1) (y 2) (y 3)

/-- One head's store: its payload is the output function on its rectangle. -/
theorem head_piece (c : Dev nD) (i : grid0.Coords) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S768x768 .bf16) (harg6 : arg6.IsWhole) (arg7 : Memref sig .tc .vmem S768 .f32) (harg7 : arg7.IsWhole) (arg8 : Memref sig .tc .vmem S50x50 .f32) (harg8 : arg8.IsWhole) (arg9 : Memref sig .tc .vmem S16x12x50x64 .f32) (harg9 : arg9.IsWhole) (arg10 : Memref sig .tc .vmem S16x50x768 .f32) (harg10 : arg10.IsWhole) (arg11 : Memref sig .tc .vmem S16x50x768 .f32) (harg11 : arg11.IsWhole) (arg12 : Memref sig .tc .vmem S16x50x768 .f32) (harg12 : arg12.IsWhole)
    (x0 : Vec Ideal S16x50x768 .f32) (x1 : Vec Ideal S768x768 .bf16) (x2 : Vec Ideal S768 .f32) (x3 : Vec Ideal S768x768 .bf16) (x4 : Vec Ideal S768 .f32) (x5 : Vec Ideal S768x768 .bf16) (x6 : Vec Ideal S768 .f32) (x7 : Vec Ideal S50x50 .f32)
    (off4 : Fin 4 → ℕ) (inb4 : ∀ a, off4 a + S16x1x50x64.size a ≤ S16x12x50x64.size a)
    (off3 : Fin 3 → ℕ) (inb3 : ∀ a, off3 a + S16x50x64.size a ≤ S16x50x768.size a)
    (h : Fin 12) (ho4 : off4 = ![0, h.val, 0, 0]) (ho3 : off3 = ![0, 0, 64 * h.val]) :
    ∀ x : S16x1x50x64.Idx,
      headOut
        (dOf (View.readAt (Elt Ideal) arg8.view (Rect.unit ![0, 0] S50x50.size inb_S50x50_S50x50_0_0).toLoadRect
          (harg8.unread x7)))
        (arg10.view.readCov (kernelRun0_A.sl.HS0_16 (F := Ideal) c arg1 harg1 arg2 harg2 arg3 harg3 x0 x1 x2) (Rect.unit (s := S16x50x768) off3 S16x50x64.size inb3).toLoadRect)
        (arg11.view.readCov (kernelRun0_A.sl.HS1_16 (F := Ideal) c arg1 harg1 arg4 harg4 arg5 harg5 x0 x3 x4) (Rect.unit (s := S16x50x768) off3 S16x50x64.size inb3).toLoadRect)
        (arg12.view.readCov (kernelRun0_A.sl.HS2_16 (F := Ideal) c arg1 harg1 arg6 harg6 arg7 harg7 x0 x5 x6) (Rect.unit (s := S16x50x768) off3 S16x50x64.size inb3).toLoadRect)
        (arg11.view.readCov (kernelRun0_A.sl.HS1_16 (F := Ideal) c arg1 harg1 arg4 harg4 arg5 harg5 x0 x3 x4) (Rect.unit (s := S16x50x768) off3 S16x50x64.size inb3).toLoadRect) x
      = outG x0 x1 x2 x3 x4 x5 x6 x7 ((Rect.unit (s := S16x12x50x64) off4 S16x1x50x64.size inb4).emb x) := by
  intro x
  obtain ⟨a, u, s, d, rfl⟩ : ∃ (a : Fin 16) (u : Fin 1) (s : Fin 50) (d : Fin 64), x = ix4 a u s d :=
    ⟨x 0, x 1, x 2, x 3, eq_ix4 x⟩
  rw [headRect_emb off4 inb4 h ho4 a u s d]
  refine (headOut_apply _ _ _ _ _ a u s d h).trans ?_
  show _ = Cert.Spec.kerOut _ a h s d
  refine kerOut_congr _ _ a h (fun s d => ?_) s d
  have hq := slice_apply arg10.view (kernelRun0_A.sl.HS0_16 (F := Ideal) c arg1 harg1 arg2 harg2 arg3 harg3 x0 x1 x2) (projG x0 x1 x2) (HS0_pieces c arg1 harg1 arg2 harg2 arg3 harg3 x0 x1 x2)
    (HS0_cover c arg1 harg1 arg2 harg2 arg3 harg3 x0 x1 x2) off3 inb3 h ho3
  have hk := slice_apply arg11.view (kernelRun0_A.sl.HS1_16 (F := Ideal) c arg1 harg1 arg4 harg4 arg5 harg5 x0 x3 x4) (projG x0 x3 x4) (HS1_pieces c arg1 harg1 arg4 harg4 arg5 harg5 x0 x3 x4)
    (HS1_cover c arg1 harg1 arg4 harg4 arg5 harg5 x0 x3 x4) off3 inb3 h ho3
  have hv := slice_apply arg12.view (kernelRun0_A.sl.HS2_16 (F := Ideal) c arg1 harg1 arg6 harg6 arg7 harg7 x0 x5 x6) (projG x0 x5 x6) (HS2_pieces c arg1 harg1 arg6 harg6 arg7 harg7 x0 x5 x6)
    (HS2_cover c arg1 harg1 arg6 harg6 arg7 harg7 x0 x5 x6) off3 inb3 h ho3
  have hD : ∀ s t : Fin 50,
      dOf (View.readAt (Elt Ideal) arg8.view (Rect.unit ![0, 0] S50x50.size inb_S50x50_S50x50_0_0).toLoadRect
        (harg8.unread x7)) (ix2 s t) = x7 (ix2 s t) := fun s t =>
    (congrFun (shapeCast_self _ _) (ix2 s t)).trans (congrFun (wholeLoad arg8 harg8 x7 ![0, 0]
      (funext fun a => match a with | ⟨0, _⟩ => rfl | ⟨1, _⟩ => rfl) _) (ix2 s t))
  simp only [hq, hk, hv, hD]
  rfl

/-- The body's value at an index, every operand named. -/
theorem body_apply_at (c : Dev nD) (i : grid0.Coords) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S768x768 .bf16) (harg6 : arg6.IsWhole) (arg7 : Memref sig .tc .vmem S768 .f32) (harg7 : arg7.IsWhole) (arg8 : Memref sig .tc .vmem S50x50 .f32) (harg8 : arg8.IsWhole) (arg9 : Memref sig .tc .vmem S16x12x50x64 .f32) (harg9 : arg9.IsWhole) (arg10 : Memref sig .tc .vmem S16x50x768 .f32) (harg10 : arg10.IsWhole) (arg11 : Memref sig .tc .vmem S16x50x768 .f32) (harg11 : arg11.IsWhole) (arg12 : Memref sig .tc .vmem S16x50x768 .f32) (harg12 : arg12.IsWhole)
    (x0 : Vec Ideal S16x50x768 .f32) (x1 : Vec Ideal S768x768 .bf16) (x2 : Vec Ideal S768 .f32) (x3 : Vec Ideal S768x768 .bf16) (x4 : Vec Ideal S768 .f32) (x5 : Vec Ideal S768x768 .bf16) (x6 : Vec Ideal S768 .f32) (x7 : Vec Ideal S50x50 .f32)
    (a : Fin 16) (h : Fin 12) (s : Fin 50) (d : Fin 64) :
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix4 a h s d)
      = Cert.Spec.kerOut (Cert.Spec.att (fun s t => x7 (ix2 s t))
          (Cert.Spec.proj (fun a s e => x0 (ix3 a s e)) (fun e f => x1 (ix2 e f)) (fun f => x2 (ix1 f)))
          (Cert.Spec.proj (fun a s e => x0 (ix3 a s e)) (fun e f => x3 (ix2 e f)) (fun f => x4 (ix1 f)))
          (Cert.Spec.proj (fun a s e => x0 (ix3 a s e)) (fun e f => x5 (ix2 e f)) (fun f => x6 (ix1 f)))) a h s d := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  refine (View.canon_apply_of_pieces (outG x0 x1 x2 x3 x4 x5 x6 x7) _ ?_ (ix4 a h s d)
    (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix4 a h s d))).trans rfl
  unfold kernelRun0_A
  dsimp only
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 11, 0, 0] inb_S16x12x50x64_S16x1x50x64_0_11_0_0 ![0, 0, 704] inb_S16x50x768_S16x50x64_0_0_704 11 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 10, 0, 0] inb_S16x12x50x64_S16x1x50x64_0_10_0_0 ![0, 0, 640] inb_S16x50x768_S16x50x64_0_0_640 10 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 9, 0, 0] inb_S16x12x50x64_S16x1x50x64_0_9_0_0 ![0, 0, 576] inb_S16x50x768_S16x50x64_0_0_576 9 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 8, 0, 0] inb_S16x12x50x64_S16x1x50x64_0_8_0_0 ![0, 0, 512] inb_S16x50x768_S16x50x64_0_0_512 8 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 7, 0, 0] inb_S16x12x50x64_S16x1x50x64_0_7_0_0 ![0, 0, 448] inb_S16x50x768_S16x50x64_0_0_448 7 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 6, 0, 0] inb_S16x12x50x64_S16x1x50x64_0_6_0_0 ![0, 0, 384] inb_S16x50x768_S16x50x64_0_0_384 6 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 5, 0, 0] inb_S16x12x50x64_S16x1x50x64_0_5_0_0 ![0, 0, 320] inb_S16x50x768_S16x50x64_0_0_320 5 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 4, 0, 0] inb_S16x12x50x64_S16x1x50x64_0_4_0_0 ![0, 0, 256] inb_S16x50x768_S16x50x64_0_0_256 4 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 3, 0, 0] inb_S16x12x50x64_S16x1x50x64_0_3_0_0 ![0, 0, 192] inb_S16x50x768_S16x50x64_0_0_192 3 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 2, 0, 0] inb_S16x12x50x64_S16x1x50x64_0_2_0_0 ![0, 0, 128] inb_S16x50x768_S16x50x64_0_0_128 2 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 1, 0, 0] inb_S16x12x50x64_S16x1x50x64_0_1_0_0 ![0, 0, 64] inb_S16x50x768_S16x50x64_0_0_64 1 rfl rfl, ?_⟩
  refine List.forall_mem_cons.2 ⟨head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 ![0, 0, 0, 0] inb_S16x12x50x64_S16x1x50x64_0_0_0_0 ![0, 0, 0] inb_S16x50x768_S16x50x64_0_0_0 0 rfl rfl, ?_⟩
  exact fun p hp => absurd hp List.not_mem_nil

/-- The body's value at an index. -/
theorem body_apply : BodyApply := body_apply_at

end Cert.KernelIdeal.KValue

end
-- ==== Proof.RefReadDefs.lean ====
/-
  The reference program's result as a pure term of its seven arguments, in named pieces: the decay table, a linear
  layer split into heads, the retention with the key residual, a tile's sum and mean, the variance (the quotient
  where the count is positive), and the normalised tile.
-/
import proofs.«177034_j32727650795908_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The decay table `1 / (1 + |s - t|)`, as the host operations build it. -/
def decayR : FVec Ideal S50x50 .f32 :=
  Host.divf (broadcastInDim S50x50 ![] bcast_S_S50x50 (constant S_ .f32 0x3F800000#32)) (addf (broadcastInDim S50x50 ![] bcast_S_S50x50 (constant S_ .f32 0x3F800000#32)) (sitofp .f32 (absi (subi (broadcastInDim S50x50 ![0, 1] bcast_S50x1_S50x50_0_1 (broadcastInDim S50x1 ![0] bcast_S50_S50x1_0 (iotaInDim S50 32 0))) (broadcastInDim S50x50 ![0, 1] bcast_S1x50_S50x50_0_1 (broadcastInDim S1x50 ![1] bcast_S50_S1x50_1 (iotaInDim S50 32 0)))))))

/-- A linear layer, split into heads and the head axis moved outward. -/
def projR (X : FVec Ideal S1024x50x768 .f32) (W : FVec Ideal S768x768 .f32) (b : FVec Ideal S768 .f32) :
    FVec Ideal S1024x12x50x64 .f32 :=
  transpose S1024x12x50x64 [0, 2, 1, 3] (shapeCast S1024x50x12x64 (addf (Host.dotGeneral dot_S1024x50x768_S768x768_S1024x50x768_2_1_01_0_n_n none X W) (broadcastInDim S1024x50x768 ![0, 1, 2] bcast_S1x1x768_S1024x50x768_0_1_2 (broadcastInDim S1x1x768 ![2] bcast_S768_S1x1x768_2 b))) shapeCasts_S1024x50x768_S1024x50x12x64) transposes_S1024x50x12x64_S1024x12x50x64_0_2_1_3

/-- The retention of every head plus the key residual. -/
def attR (q k v : FVec Ideal S1024x12x50x64 .f32) : FVec Ideal S1024x12x50x64 .f32 :=
  addf (Host.dotGeneral dot_S1024x12x50x50_S1024x12x50x64_S1024x12x50x64_3_2_2_3_01_01 none (mulf (Host.dotGeneral dot_S1024x12x50x64_S1024x12x50x64_S1024x12x50x50_3_3_2_2_01_01 none q k) (broadcastInDim S1024x12x50x50 ![0, 1, 2, 3] bcast_S1x1x50x50_S1024x12x50x50_0_1_2_3 (broadcastInDim S1x1x50x50 ![2, 3] bcast_S50x50_S1x1x50x50_2_3 decayR))) v) k

/-- The sum of each (row, head) tile. -/
def sumR (o : FVec Ideal S1024x12x50x64 .f32) : FVec Ideal S1024x12x1x1 .f32 :=
  broadcastInDim S1024x12x1x1 ![0, 1] bcast_S1024x12_S1024x12x1x1_0_1 (Host.reduceAdd o (constant S_ .f32 0x00000000#32) reducesTo_S1024x12x50x64_S1024x12_d2_3 h_S_)

/-- The mean of each tile. -/
def meanR (o : FVec Ideal S1024x12x50x64 .f32) : FVec Ideal S1024x12x1x1 .f32 :=
  Host.divf (sumR o) (broadcastInDim S1024x12x1x1 ![] bcast_S_S1024x12x1x1 (constant S_ .f32 0x45480000#32))

/-- The tile size less the degrees of freedom removed (none). -/
def cntR : FVec Ideal S_ .f32 :=
  subf (constant S_ .f32 0x45480000#32) (sitofp .f32 (constantI S_ 32 0#32))

/-- The variance of each tile: the quotient where the count is positive. -/
def varR (o : FVec Ideal S1024x12x50x64 .f32) : FVec Ideal S1024x12x1x1 .f32 :=
  select (broadcastInDim S1024x12x1x1 ![] bcast_S_S1024x12x1x1 (cmpf .ogt cntR (constant S_ .f32 0x00000000#32)))
    (Host.divf (sumR (mulf (subf o (broadcastInDim S1024x12x50x64 ![0, 1, 2, 3] bcast_S1024x12x1x1_S1024x12x50x64_0_1_2_3 (meanR o))) (subf o (broadcastInDim S1024x12x50x64 ![0, 1, 2, 3] bcast_S1024x12x1x1_S1024x12x50x64_0_1_2_3 (meanR o))))) (broadcastInDim S1024x12x1x1 ![] bcast_S_S1024x12x1x1 cntR))
    (broadcastInDim S1024x12x1x1 ![] bcast_S_S1024x12x1x1 (id (constant S_ .f32 0x7FC00000#32)))

/-- The normalised tile: the deviation divided by the square root of variance + eps. -/
def normR (o : FVec Ideal S1024x12x50x64 .f32) : FVec Ideal S1024x12x50x64 .f32 :=
  Host.divf (subf o (broadcastInDim S1024x12x50x64 ![0, 1, 2, 3] bcast_S1024x12x1x1_S1024x12x50x64_0_1_2_3 (meanR o))) (broadcastInDim S1024x12x50x64 ![0, 1, 2, 3] bcast_S1024x12x1x1_S1024x12x50x64_0_1_2_3 (Host.sqrt (addf (varR o) (broadcastInDim S1024x12x1x1 ![] bcast_S_S1024x12x1x1 (constant S_ .f32 0x3727C5AC#32)))))

/-- The operand of the last reshape, as a term of the seven arguments. -/
def refArr (X : FVec Ideal S1024x50x768 .f32) (Wq : FVec Ideal S768x768 .f32) (bq : FVec Ideal S768 .f32)
    (Wk : FVec Ideal S768x768 .f32) (bk : FVec Ideal S768 .f32) (Wv : FVec Ideal S768x768 .f32) (bv : FVec Ideal S768 .f32) :
    FVec Ideal S1024x12x50x64 .f32 :=
  normR (attR (projR X Wq bq) (projR X Wk bk) (projR X Wv bv))

end Cert.ReferenceIdeal.RefValue

end
-- ==== Proof.RefRun.lean ====
/-
  The reference program's run: its @main as one straight line of host operations (the variance function and the
  selection it calls listed at the call site over the call's buffers), every weakly fair execution of that line,
  and the result buffer as a pure term of the seven arguments.
-/
import proofs.«177034_j32727650795908_2_alg».proof.Proof.Gen.ReferenceIdeal
import proofs.«177034_j32727650795908_2_alg».proof.Proof.RefReadDefs
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 77 operations, in order: the variance function's 21 and the selection's 3 at the call site. -/
abbrev ops : List (HloOp τ sig (Elt F)) :=
  [ StableHlo.binary main_arg0 main_arg1 main_v0 ((fun l r => Host.dotGeneral dot_S1024x50x768_S768x768_S1024x50x768_2_1_01_0_n_n none l r) : (⟨S1024x50x768, .f32⟩ : BufTy).Contents (Elt F) → (⟨S768x768, .f32⟩ : BufTy).Contents (Elt F) → (⟨S1024x50x768, .f32⟩ : BufTy).Contents (Elt F)),
    StableHlo.unary main_arg2 main_v1 (broadcastInDim S1x1x768 ![2] bcast_S768_S1x1x768_2 : (⟨S768, .f32⟩ : BufTy).Contents (Elt F) → (⟨S1x1x768, .f32⟩ : BufTy).Contents (Elt F)),
    StableHlo.unary main_v1 main_v2 (broadcastInDim S1024x50x768 ![0, 1, 2] bcast_S1x1x768_S1024x50x768_0_1_2 : (⟨S1x1x768, .f32⟩ : BufTy).Contents (Elt F) → (⟨S1024x50x768, .f32⟩ : BufTy).Contents (Elt F)),
    StableHlo.binary main_v0 main_v2 main_v3 (addf : (⟨S1024x50x768, .f32⟩ : BufTy).Contents (Elt F) → (⟨S1024x50x768, .f32⟩ : BufTy).Contents (Elt F) → (⟨S1024x50x768, .f32⟩ : BufTy).Contents (Elt F)),
    StableHlo.reshape main_v3 main_v4 rfl shapeCasts_S1024x50x768_S1024x50x12x64,
    StableHlo.unary main_v4 main_v5 ((transpose S1024x12x50x64 [0, 2, 1, 3] · transposes_S1024x50x12x64_S1024x12x50x64_0_2_1_3) : (⟨S1024x50x12x64, .f32⟩ : BufTy).Contents (Elt F) → (⟨S1024x12x50x64, .f32⟩ : BufTy).Contents (Elt F)),
    StableHlo.binary main_arg0 main_arg3 main_v6 ((fun l r => Host.dotGeneral dot_S1024x50x768_S768x768_S1024x50x768_2_1_01_0_n_n none l r) : (⟨S1024x50x768, .f32⟩ : BufTy).Contents (Elt F) → (⟨S768x768, .f32⟩ : BufTy).Contents (Elt F) → (⟨S1024x50x768, .f32⟩ : BufTy).Contents (Elt F)),
    StableHlo.unary main_arg4 main_v7 (broadcastInDim S1x1x768 ![2] bcast_S768_S1x1x768_2 : (⟨S768, .f32⟩ : BufTy).Contents (Elt F) → (⟨S1x1x768, .f32⟩ : BufTy).Contents (Elt F)),
    StableHlo.unary main_v7 main_v8 (broadcastInDim S1024x50x768 ![0, 1, 2] bcast_S1x1x768_S1024x50x768_0_1_2 : (⟨S1x1x768, .f32⟩ : BufTy).Contents (Elt F) → (⟨S1024x50x768, .f32⟩ : BufTy).Contents (Elt F)),
    StableHlo.binary main_v6 main_v8 main_v9 (addf : (⟨S1024x50x768, .f32⟩ : BufTy).Contents (Elt F) → (⟨S1024x50x768, .f32⟩ : BufTy).Contents (Elt F) → (⟨S1024x50x768, .f32⟩ : BufTy).Contents (Elt F)),
    StableHlo.reshape main_v9 main_v10 rfl shapeCasts_S1024x50x768_S1024x50x12x64,
    StableHlo.unary main_v10 main_v11 ((transpose S1024x12x50x64 [0, 2, 1, 3] · transposes_S1024x50x12x64_S1024x12x50x64_0_2_1_3) : (⟨S1024x50x12x64, .f32⟩ : BufTy).Contents (Elt F) → (⟨S1024x12x50x64, .f32⟩ : BufTy).Contents (Elt F)),
    StableHlo.binary main_arg0 main_arg5 main_v12 ((fun l r => Host.dotGeneral dot_S1024x50x768_S768x768_S1024x50x768_2_1_01_0_n_n none l r) : (⟨S1024x50x768, .f32⟩ : BufTy).Contents (Elt F) → (⟨S768x768, .f32⟩ : BufTy).Contents (Elt F) → (⟨S1024x50x768, .f32⟩ : BufTy).Contents (Elt F)),
    StableHlo.unary main_arg6 main_v13 (broadcastInDim S1x1x768 ![2] bcast_S768_S1x1x768_2 : (⟨S768, .f32⟩ : BufTy).Contents (Elt F) → (⟨S1x1x768, .f32⟩ : BufTy).Contents (Elt F)),
    StableHlo.unary main_v13 main_v14 (broadcastInDim S1024x50x768 ![0, 1, 2] bcast_S1x1x768_S1024x50x768_0_1_2 : (⟨S1x1x768, .f32⟩ : BufTy).Contents (Elt F) → (⟨S1024x50x768, .f32⟩ : BufTy).Contents (Elt F)),
    StableHlo.binary main_v12 main_v14 main_v15 (addf : (⟨S1024x50x768, .f32⟩ : BufTy).Contents (Elt F) → (⟨S1024x50x768, .f32⟩ : BufTy).Contents (Elt F) → (⟨S1024x50x768, .f32⟩ : BufTy).Contents (Elt F)),
    StableHlo.reshape main_v15 main_v16 rfl shapeCasts_S1024x50x768_S1024x50x12x64,
    StableHlo.unary main_v16 main_v17 ((transpose S1024x12x50x64 [0, 2, 1, 3] · transposes_S1024x50x12x64_S1024x12x50x64_0_2_1_3) : (⟨S1024x50x12x64, .f32⟩ : BufTy).Contents (Elt F) → (⟨S1024x12x50x64, .f32⟩ : BufTy).Contents (Elt F)),
    StableHlo.nullary main_v18 (iotaInDim S50 32 0),
    StableHlo.unary main_v18 main_v19 (broadcastInDim S50x1 ![0] bcast_S50_S50x1_0 : (⟨S50, .i32⟩ : BufTy).Contents (Elt F) → (⟨S50x1, .i32⟩ : BufTy).Contents (Elt F)),
    StableHlo.unary main_v18 main_v20 (broadcastInDim S1x50 ![1] bcast_S50_S1x50_1 : (⟨S50, .i32⟩ : BufTy).Contents (Elt F) → (⟨S1x50, .i32⟩ : BufTy).Contents (Elt F)),
    StableHlo.unary main_v19 main_v21 (broadcastInDim S50x50 ![0, 1] bcast_S50x1_S50x50_0_1 : (⟨S50x1, .i32⟩ : BufTy).Contents (Elt F) → (⟨S50x50, .i32⟩ : BufTy).Contents (Elt F)),
    StableHlo.unary main_v20 main_v22 (broadcastInDim S50x50 ![0, 1] bcast_S1x50_S50x50_0_1 : (⟨S1x50, .i32⟩ : BufTy).Contents (Elt F) → (⟨S50x50, .i32⟩ : BufTy).Contents (Elt F)),
    StableHlo.binary main_v21 main_v22 main_v23 (subi : (⟨S50x50, .i32⟩ : BufTy).Contents (Elt F) → (⟨S50x50, .i32⟩ : BufTy).Contents (Elt F) → (⟨S50x50, .i32⟩ : BufTy).Contents (Elt F)),
    StableHlo.unary main_v23 main_v24 (absi : (⟨S50x50, .i32⟩ : BufTy).Contents (Elt F) → (⟨S50x50, .i32⟩ : BufTy).Contents (Elt F)),
    StableHlo.unary main_v24 main_v25 (sitofp .f32 : (⟨S50x50, .i32⟩ : BufTy).Contents (Elt F) → (⟨S50x50, .f32⟩ : BufTy).Contents (Elt F)),
    StableHlo.nullary main_cst (constant S_ .f32 0x3F800000#32),
    StableHlo.unary main_cst main_v26 (broadcastInDim S50x50 ![] bcast_S_S50x50 : (⟨S_, .f32⟩ : BufTy).Contents (Elt F) → (⟨S50x50, .f32⟩ : BufTy).Contents (Elt F)),
    StableHlo.binary main_v26 main_v25 main_v27 (addf : (⟨S50x50, .f32⟩ : BufTy).Contents (Elt F) → (⟨S50x50, .f32⟩ : BufTy).Contents (Elt F) → (⟨S50x50, .f32⟩ : BufTy).Contents (Elt F)),
    StableHlo.nullary main_cst_0 (constant S_ .f32 0x3F800000#32),
    StableHlo.unary main_cst_0 main_v28 (broadcastInDim S50x50 ![] bcast_S_S50x50 : (⟨S_, .f32⟩ : BufTy).Contents (Elt F) → (⟨S50x50, .f32⟩ : BufTy).Contents (Elt F)),
    StableHlo.binary main_v28 main_v27 main_v29 (Host.divf : (⟨S50x50, .f32⟩ : BufTy).Contents (Elt F) → (⟨S50x50, .f32⟩ : BufTy).Contents (Elt F) → (⟨S50x50, .f32⟩ : BufTy).Contents (Elt F)),
    StableHlo.binary main_v5 main_v11 main_v30 ((fun l r => Host.dotGeneral dot_S1024x12x50x64_S1024x12x50x64_S1024x12x50x50_3_3_2_2_01_01 none l r) : (⟨S1024x12x50x64, .f32⟩ : BufTy).Contents (Elt F) → (⟨S1024x12x50x64, .f32⟩ : BufTy).Contents (Elt F) → (⟨S1024x12x50x50, .f32⟩ : BufTy).Contents (Elt F)),
    StableHlo.unary main_v29 main_v31 (broadcastInDim S1x1x50x50 ![2, 3] bcast_S50x50_S1x1x50x50_2_3 : (⟨S50x50, .f32⟩ : BufTy).Contents (Elt F) → (⟨S1x1x50x50, .f32⟩ : BufTy).Contents (Elt F)),
    StableHlo.unary main_v31 main_v32 (broadcastInDim S1024x12x50x50 ![0, 1, 2, 3] bcast_S1x1x50x50_S1024x12x50x50_0_1_2_3 : (⟨S1x1x50x50, .f32⟩ : BufTy).Contents (Elt F) → (⟨S1024x12x50x50, .f32⟩ : BufTy).Contents (Elt F)),
    StableHlo.binary main_v30 main_v32 main_v33 (mulf : (⟨S1024x12x50x50, .f32⟩ : BufTy).Contents (Elt F) → (⟨S1024x12x50x50, .f32⟩ : BufTy).Contents (Elt F) → (⟨S1024x12x50x50, .f32⟩ : BufTy).Contents (Elt F)),
    StableHlo.binary main_v33 main_v17 main_v34 ((fun l r => Host.dotGeneral dot_S1024x12x50x50_S1024x12x50x64_S1024x12x50x64_3_2_2_3_01_01 none l r) : (⟨S1024x12x50x50, .f32⟩ : BufTy).Contents (Elt F) → (⟨S1024x12x50x64, .f32⟩ : BufTy).Contents (Elt F) → (⟨S1024x12x50x64, .f32⟩ : BufTy).Contents (Elt F)),
    StableHlo.binary main_v34 main_v11 main_v35 (addf : (⟨S1024x12x50x64, .f32⟩ : BufTy).Contents (Elt F) → (⟨S1024x12x50x64, .f32⟩ : BufTy).Contents (Elt F) → (⟨S1024x12x50x64, .f32⟩ : BufTy).Contents (Elt F)),
    StableHlo.nullary main_cst_1 (constant S_ .f32 0x00000000#32),
    StableHlo.binary main_v35 main_cst_1 main_v36 ((fun x v => Host.reduceAdd x v reducesTo_S1024x12x50x64_S1024x12_d2_3 h_S_) : (⟨S1024x12x50x64, .f32⟩ : BufTy).Contents (Elt F) → (⟨S_, .f32⟩ : BufTy).Contents (Elt F) → (⟨S1024x12, .f32⟩ : BufTy).Contents (Elt F)),
    StableHlo.unary main_v36 main_v37 (broadcastInDim S1024x12x1x1 ![0, 1] bcast_S1024x12_S1024x12x1x1_0_1 : (⟨S1024x12, .f32⟩ : BufTy).Contents (Elt F) → (⟨S1024x12x1x1, .f32⟩ : BufTy).Contents (Elt F)),
    StableHlo.nullary main_cst_2 (constant S_ .f32 0x45480000#32),
    StableHlo.unary main_cst_2 main_v38 (broadcastInDim S1024x12x1x1 ![] bcast_S_S1024x12x1x1 : (⟨S_, .f32⟩ : BufTy).Contents (Elt F) → (⟨S1024x12x1x1, .f32⟩ : BufTy).Contents (Elt F)),
    StableHlo.binary main_v37 main_v38 main_v39 (Host.divf : (⟨S1024x12x1x1, .f32⟩ : BufTy).Contents (Elt F) → (⟨S1024x12x1x1, .f32⟩ : BufTy).Contents (Elt F) → (⟨S1024x12x1x1, .f32⟩ : BufTy).Contents (Elt F)),
    StableHlo.nullary main_c (constantI S_ 32 0#32),
    StableHlo.TRef.nullary main_call0.cst (constant S_ .f32 0x00000000#32),
    StableHlo.TRef.binary (.of main_v35) main_call0.cst main_call0.v0 (fun x v => Host.reduceAdd x v reducesTo_S1024x12x50x64_S1024x12_d2_3 h_S_),
    StableHlo.TRef.unary main_call0.v0 main_call0.v1 (broadcastInDim S1024x12x1x1 ![0, 1] bcast_S1024x12_S1024x12x1x1_0_1),
    StableHlo.TRef.nullary main_call0.cst_0 (constant S_ .f32 0x45480000#32),
    StableHlo.TRef.unary main_call0.cst_0 main_call0.v2 (broadcastInDim S1024x12x1x1 ![] bcast_S_S1024x12x1x1),
    StableHlo.TRef.binary main_call0.v1 main_call0.v2 main_call0.v3 Host.divf,
    StableHlo.TRef.unary main_call0.v3 main_call0.v4 (broadcastInDim S1024x12x50x64 ![0, 1, 2, 3] bcast_S1024x12x1x1_S1024x12x50x64_0_1_2_3),
    StableHlo.TRef.binary (.of main_v35) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x45480000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S1024x12x50x64_S1024x12_d2_3 h_S_),
    StableHlo.TRef.unary main_call0.v9 main_call0.v10 (broadcastInDim S1024x12x1x1 ![0, 1] bcast_S1024x12_S1024x12x1x1_0_1),
    StableHlo.TRef.unary main_call0.v8 main_call0.v11 (broadcastInDim S1024x12x1x1 ![] bcast_S_S1024x12x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1024x12x1x1 ![] bcast_S_S1024x12x1x1),
    StableHlo.TRef.ternary main_call0.v13 main_call0.v12 main_call0.call0.v1 main_call0.call0.v2 (fun p a b => select (broadcastInDim S1024x12x1x1 ![] bcast_S_S1024x12x1x1 p) a b),
    StableHlo.unary main_v39 main_v41 (broadcastInDim S1024x12x50x64 ![0, 1, 2, 3] bcast_S1024x12x1x1_S1024x12x50x64_0_1_2_3 : (⟨S1024x12x1x1, .f32⟩ : BufTy).Contents (Elt F) → (⟨S1024x12x50x64, .f32⟩ : BufTy).Contents (Elt F)),
    StableHlo.binary main_v35 main_v41 main_v42 (subf : (⟨S1024x12x50x64, .f32⟩ : BufTy).Contents (Elt F) → (⟨S1024x12x50x64, .f32⟩ : BufTy).Contents (Elt F) → (⟨S1024x12x50x64, .f32⟩ : BufTy).Contents (Elt F)),
    StableHlo.nullary main_cst_3 (constant S_ .f32 0x3727C5AC#32),
    StableHlo.unary main_cst_3 main_v43 (broadcastInDim S1024x12x1x1 ![] bcast_S_S1024x12x1x1 : (⟨S_, .f32⟩ : BufTy).Contents (Elt F) → (⟨S1024x12x1x1, .f32⟩ : BufTy).Contents (Elt F)),
    StableHlo.binary main_v40 main_v43 main_v44 (addf : (⟨S1024x12x1x1, .f32⟩ : BufTy).Contents (Elt F) → (⟨S1024x12x1x1, .f32⟩ : BufTy).Contents (Elt F) → (⟨S1024x12x1x1, .f32⟩ : BufTy).Contents (Elt F)),
    StableHlo.unary main_v44 main_v45 (Host.sqrt : (⟨S1024x12x1x1, .f32⟩ : BufTy).Contents (Elt F) → (⟨S1024x12x1x1, .f32⟩ : BufTy).Contents (Elt F)),
    StableHlo.unary main_v45 main_v46 (broadcastInDim S1024x12x50x64 ![0, 1, 2, 3] bcast_S1024x12x1x1_S1024x12x50x64_0_1_2_3 : (⟨S1024x12x1x1, .f32⟩ : BufTy).Contents (Elt F) → (⟨S1024x12x50x64, .f32⟩ : BufTy).Contents (Elt F)),
    StableHlo.binary main_v42 main_v46 main_v47 (Host.divf : (⟨S1024x12x50x64, .f32⟩ : BufTy).Contents (Elt F) → (⟨S1024x12x50x64, .f32⟩ : BufTy).Contents (Elt F) → (⟨S1024x12x50x64, .f32⟩ : BufTy).Contents (Elt F)),
    StableHlo.reshape main_v47 main_v48 rfl shapeCasts_S1024x12x50x64_S1024x50x768 ]

set_option maxRecDepth 8192 in
set_option maxHeartbeats 400000 in
/-- @main is that straight line: the two functions' definitions unfold at their calls, and sequencing reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., reshape_bufs_sub .., unary_bufs_sub ..,
    binary_bufs_sub .., unary_bufs_sub .., unary_bufs_sub .., binary_bufs_sub .., reshape_bufs_sub .., unary_bufs_sub ..,
    binary_bufs_sub .., unary_bufs_sub .., unary_bufs_sub .., binary_bufs_sub .., reshape_bufs_sub .., unary_bufs_sub ..,
    nullary_bufs_sub .., unary_bufs_sub .., unary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., unary_bufs_sub .., unary_bufs_sub .., binary_bufs_sub ..,
    binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., reshape_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result buffer and the arguments after the line -/

attribute [local irreducible] Host.reduceAdd Host.divf Host.sqrt broadcastInDim transpose shapeCast in
set_option maxRecDepth 16384 in
set_option maxHeartbeats 4000000 in
/-- The fold of the operations at the result buffer is the last reshape of `refArr` at the arguments' contents. -/
theorem res_eq (V : Valuation τ sig (Elt Ideal)) :
    after ops V (main_v48 : DevRef τ sig)
      = shapeCast S1024x50x768 (refArr (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)))
          shapeCasts_S1024x12x50x64_S1024x50x768 := by
  after_results_simp
  rfl

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

theorem arg2_eq (V : Valuation τ sig (Elt Ideal)) :
    after ops V (main_arg2 : DevRef τ sig) = V (main_arg2 : DevRef τ sig) := by
  after_results_simp

theorem arg3_eq (V : Valuation τ sig (Elt Ideal)) :
    after ops V (main_arg3 : DevRef τ sig) = V (main_arg3 : DevRef τ sig) := by
  after_results_simp

theorem arg4_eq (V : Valuation τ sig (Elt Ideal)) :
    after ops V (main_arg4 : DevRef τ sig) = V (main_arg4 : DevRef τ sig) := by
  after_results_simp

theorem arg5_eq (V : Valuation τ sig (Elt Ideal)) :
    after ops V (main_arg5 : DevRef τ sig) = V (main_arg5 : DevRef τ sig) := by
  after_results_simp

theorem arg6_eq (V : Valuation τ sig (Elt Ideal)) :
    after ops V (main_arg6 : DevRef τ sig) = V (main_arg6 : DevRef τ sig) := by
  after_results_simp

/-- From any memory with zero counters, every weakly fair execution of @main terminates with the result buffer at the last
    reshape of `refArr` at the arguments' launch contents, and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v48)
        = shapeCast S1024x50x768 (refArr (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))) shapeCasts_S1024x12x50x64_S1024x50x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v48).trans (res_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_main (F := Ideal) m ρ)

end Cert.ReferenceIdeal.RefValue

end
-- ==== Proof.RefRead1.lean ====
/-
  The reference's linear layers read at an index: the product with the weight (contracting the input features,
  the weight read by its second axis), the bias broadcast over rows and positions, the split of the 768 features
  into 12 heads of 64 lanes (feature 64 h + d) and the head axis moved outward.
-/
import proofs.«177034_j32727650795908_2_alg».proof.Proof.RefReadDefs
import proofs.«177034_j32727650795908_2_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-- The bias, broadcast to every row and position, reads the bias at the feature. -/
theorem bias_apply (b : FVec Ideal S768 .f32) (m : Fin 1024) (s : Fin 50) (f : Fin 768) :
    broadcastInDim S1024x50x768 ![0, 1, 2] bcast_S1x1x768_S1024x50x768_0_1_2
        (broadcastInDim S1x1x768 ![2] bcast_S768_S1x1x768_2 b) (ix3 m s f) = b (ix1 f) := by
  refine (broadcastInDim_apply _ _ _ _ (ix3 (0 : Fin 1) (0 : Fin 1) f) ?_).trans ?_
  · intro a
    match a with
    | ⟨0, _⟩ => rfl
    | ⟨1, _⟩ => rfl
    | ⟨2, _⟩ => rfl
  · refine broadcastInDim_apply _ _ _ _ (ix1 f) ?_
    intro a
    match a with
    | ⟨0, _⟩ => rfl

/-- The product with a weight at (row, position, feature): the sum over the input features, the weight read at
    (feature, input feature). -/
theorem dotW_apply (X : FVec Ideal S1024x50x768 .f32) (W : FVec Ideal S768x768 .f32) (m : Fin 1024) (s : Fin 50) (f : Fin 768) :
    Host.dotGeneral dot_S1024x50x768_S768x768_S1024x50x768_2_1_01_0_n_n none X W (ix3 m s f)
      = ∑ e : Fin 768, X (ix3 m s e) * W (ix2 f e) := by
  simp only [Host.dotGeneral]
  rw [Ideal.dotGeneral_apply,
    ← Equiv.sum_comp (contrEquiv1 dot_S1024x50x768_S768x768_S1024x50x768_2_1_01_0_n_n 768 rfl rfl).symm]
  refine Finset.sum_congr rfl fun e _ => ?_
  have hl : dot_S1024x50x768_S768x768_S1024x50x768_2_1_01_0_n_n.lhsIdx (ix3 m s f)
      ((contrEquiv1 dot_S1024x50x768_S768x768_S1024x50x768_2_1_01_0_n_n 768 rfl rfl).symm e) = ix3 m s e := by
    funext a
    match a with
    | ⟨0, _⟩ => exact Fin.ext rfl
    | ⟨1, _⟩ => exact Fin.ext rfl
    | ⟨2, _⟩ =>
      exact Fin.ext ((DotDims.lhsIdx_val_of_single _ (cl := 2) rfl _ _).trans (contrEquiv1_symm_val _ 768 rfl rfl e))
  have hr : dot_S1024x50x768_S768x768_S1024x50x768_2_1_01_0_n_n.rhsIdx (ix3 m s f)
      ((contrEquiv1 dot_S1024x50x768_S768x768_S1024x50x768_2_1_01_0_n_n 768 rfl rfl).symm e) = ix2 f e := by
    funext a
    match a with
    | ⟨0, _⟩ => exact Fin.ext rfl
    | ⟨1, _⟩ =>
      exact Fin.ext ((DotDims.rhsIdx_val_of_single _ (cr := 1) rfl _ _).trans (contrEquiv1_symm_val _ 768 rfl rfl e))
  rw [hl, hr]

/-- The split into heads at (row, position, head, lane) reads feature 64 h + d. -/
theorem split_apply (Z : FVec Ideal S1024x50x768 .f32) (m : Fin 1024) (s : Fin 50) (h : Fin 12) (d : Fin 64) :
    shapeCast S1024x50x12x64 Z shapeCasts_S1024x50x768_S1024x50x12x64 (ix4 m s h d) = Z (ix3 m s (Cert.Spec.col h d)) := by
  refine shapeCast_apply Z _ _ _ ?_
  rw [Shape.rowMajor_val_three, Shape.rowMajor_val_four]
  show (m.val * 50 + s.val) * 768 + (64 * h.val + d.val) = ((m.val * 50 + s.val) * 12 + h.val) * 64 + d.val
  omega

/-- The head axis moved outward: (row, head, position, lane) reads (row, position, head, lane). -/
theorem swap_apply (Y : FVec Ideal S1024x50x12x64 .f32) (m : Fin 1024) (h : Fin 12) (s : Fin 50) (d : Fin 64) :
    transpose S1024x12x50x64 [0, 2, 1, 3] Y transposes_S1024x50x12x64_S1024x12x50x64_0_2_1_3 (ix4 m h s d) = Y (ix4 m s h d) := by
  refine transpose_apply _ Y _ _ _ ?_
  intro b
  match b with
  | ⟨0, _⟩ => rfl
  | ⟨1, _⟩ => rfl
  | ⟨2, _⟩ => rfl
  | ⟨3, _⟩ => rfl

/-- A linear layer at (row, head, position, lane): the specification's projection at feature 64 h + d. -/
theorem projR_apply (X : FVec Ideal S1024x50x768 .f32) (W : FVec Ideal S768x768 .f32) (b : FVec Ideal S768 .f32)
    (m : Fin 1024) (h : Fin 12) (s : Fin 50) (d : Fin 64) :
    projR X W b (ix4 m h s d)
      = Cert.Spec.proj (fun m s e => X (ix3 m s e)) (fun e f => W (ix2 f e)) (fun f => b (ix1 f)) m s (Cert.Spec.col h d) := by
  unfold projR
  rw [swap_apply, split_apply, addf_apply, dotW_apply, bias_apply]
  rfl

end Cert.ReferenceIdeal.RefValue

end
-- ==== Proof.LibTileSum.lean ====
/-
  A host sum over the two trailing axes of a rank-4 array, read at an index.
-/
import Idealize.ShloMosaic.PureOps.Ideal
import Idealize.ShloMosaic.PureOps.Ideal.Laws
import Idealize.ShloMosaic.PureOps.Reduce
import Idealize.ShloMosaic.Lib.ValueIdx

namespace Cert.LibTileSum

open Idealize.ShloMosaic Idealize.ShloMosaic.ValueIdx

/-- The host's `stablehlo.reduce … add` of an array [a, b, c, d] across the axes [2, 3] (a sum over each
    c x d tile), read at (i, j) at the ideal values: the initial value plus the double sum over the tile's
    coordinates of the operand at (i, j, p, q).  The indices that drop to (i, j) are exactly the (i, j, p, q):
    the sum over them is re-indexed by the pair (p, q). -/
theorem hostReduceAdd_tile {a b c d : ℕ}
    (h' : (⟨4, ![a, b, c, d]⟩ : Shape).ReducesTo [2, 3] ⟨2, ![a, b]⟩)
    (x : (⟨4, ![a, b, c, d]⟩ : Shape).Idx → EReal) (init : EReal) (i : Fin a) (j : Fin b) :
    Ideal.hostReduceAdd h' x init (ix2 i j) = init + ∑ p : Fin c, ∑ q : Fin d, x (ix4 i j p q) := by
  unfold Ideal.hostReduceAdd
  refine congrArg (init + ·) ?_
  rw [← Finset.sum_product' (s := (Finset.univ : Finset (Fin c))) (t := (Finset.univ : Finset (Fin d)))
    (f := fun p q => x (ix4 i j p q))]
  have hmem : ∀ k : (⟨4, ![a, b, c, d]⟩ : Shape).Idx, h'.drop k = ix2 i j → k = ix4 i j (k 2) (k 3) := by
    intro k hk
    funext e
    match e with
    | ⟨0, _⟩ => exact Fin.ext (congrArg Fin.val (congrFun hk 0))
    | ⟨1, _⟩ => exact Fin.ext (congrArg Fin.val (congrFun hk 1))
    | ⟨2, _⟩ => rfl
    | ⟨3, _⟩ => rfl
  refine Finset.sum_bij' (fun k _ => ((k 2, k 3) : Fin c × Fin d)) (fun pq _ => ix4 i j pq.1 pq.2) ?_ ?_ ?_ ?_ ?_
  · intro k _; exact Finset.mem_product.mpr ⟨Finset.mem_univ _, Finset.mem_univ _⟩
  · intro pq _
    refine Finset.mem_filter.mpr ⟨Finset.mem_univ _, ?_⟩
    funext e
    match e with
    | ⟨0, _⟩ => rfl
    | ⟨1, _⟩ => rfl
  · intro k hk
    exact (hmem k (Finset.mem_filter.mp hk).2).symm
  · intro pq _; rfl
  · intro k hk
    exact congrArg x (hmem k (Finset.mem_filter.mp hk).2)

end Cert.LibTileSum
-- ==== Proof.RefRead2.lean ====
/-
  The retention read at an index: the scores (contracting the 64 lanes of a head), the decay table broadcast over
  rows and heads, the product with the values (contracting the 50 positions), and the key residual; then a tile's
  sum: the host's reduction over the two tile axes is the double sum over positions and lanes.
-/
import proofs.«177034_j32727650795908_2_alg».proof.Proof.RefReadDefs
import Idealize.ShloMosaic.PureOps.Ideal.Laws
import Idealize.ShloMosaic.Lib.ValueIdx
import Idealize.ShloMosaic.Lib.IdealHost
import Idealize.ShloMosaic.Lib.Pipeline.Value
import proofs.«177034_j32727650795908_2_alg».proof.Proof.LibTileSum

noncomputable section

namespace Cert.ReferenceIdeal.RefValue

open Cert.ReferenceIdeal Cert.ReferenceIdeal.Gen Idealize.ShloMosaic Idealize.ShloMosaic.ValueIdx

/-- The decay table, broadcast to every row and head, reads the table at the two positions. -/
theorem decayB_apply (m : Fin 1024) (h : Fin 12) (s t : Fin 50) :
    broadcastInDim S1024x12x50x50 ![0, 1, 2, 3] bcast_S1x1x50x50_S1024x12x50x50_0_1_2_3
        (broadcastInDim S1x1x50x50 ![2, 3] bcast_S50x50_S1x1x50x50_2_3 decayR) (ix4 m h s t) = decayR (ix2 s t) := by
  refine (broadcastInDim_apply _ _ _ _ (ix4 (0 : Fin 1) (0 : Fin 1) s t) ?_).trans ?_
  · intro a
    match a with
    | ⟨0, _⟩ => rfl
    | ⟨1, _⟩ => rfl
    | ⟨2, _⟩ => rfl
    | ⟨3, _⟩ => rfl
  · refine broadcastInDim_apply _ _ _ _ (ix2 s t) ?_
    intro a
    match a with
    | ⟨0, _⟩ => rfl
    | ⟨1, _⟩ => rfl

/-- The scores at (row, head, s, t): the sum over the head's lanes of query at s times key at t. -/
theorem dotQK_apply (q k : FVec Ideal S1024x12x50x64 .f32) (m : Fin 1024) (h : Fin 12) (s t : Fin 50) :
    Host.dotGeneral dot_S1024x12x50x64_S1024x12x50x64_S1024x12x50x50_3_3_2_2_01_01 none q k (ix4 m h s t)
      = ∑ e : Fin 64, q (ix4 m h s e) * k (ix4 m h t e) := by
  simp only [Host.dotGeneral]
  rw [Ideal.dotGeneral_apply,
    ← Equiv.sum_comp (contrEquiv1 dot_S1024x12x50x64_S1024x12x50x64_S1024x12x50x50_3_3_2_2_01_01 64 rfl rfl).symm]
  refine Finset.sum_congr rfl fun e _ => ?_
  have hl : dot_S1024x12x50x64_S1024x12x50x64_S1024x12x50x50_3_3_2_2_01_01.lhsIdx (ix4 m h s t)
      ((contrEquiv1 dot_S1024x12x50x64_S1024x12x50x64_S1024x12x50x50_3_3_2_2_01_01 64 rfl rfl).symm e) = ix4 m h s e := by
    funext a
    match a with
    | ⟨0, _⟩ => exact Fin.ext rfl
    | ⟨1, _⟩ => exact Fin.ext rfl
    | ⟨2, _⟩ => exact Fin.ext rfl
    | ⟨3, _⟩ =>
      exact Fin.ext ((DotDims.lhsIdx_val_of_single _ (cl := 3) rfl _ _).trans (contrEquiv1_symm_val _ 64 rfl rfl e))
  have hr : dot_S1024x12x50x64_S1024x12x50x64_S1024x12x50x50_3_3_2_2_01_01.rhsIdx (ix4 m h s t)
      ((contrEquiv1 dot_S1024x12x50x64_S1024x12x50x64_S1024x12x50x50_3_3_2_2_01_01 64 rfl rfl).symm e) = ix4 m h t e := by
    funext a
    match a with
    | ⟨0, _⟩ => exact Fin.ext rfl
    | ⟨1, _⟩ => exact Fin.ext rfl
    | ⟨2, _⟩ => exact Fin.ext rfl
    | ⟨3, _⟩ =>
      exact Fin.ext ((DotDims.rhsIdx_val_of_single _ (cr := 3) rfl _ _).trans (contrEquiv1_symm_val _ 64 rfl rfl e))
  rw [hl, hr]

/-- The weighted values at (row, head, s, d): the sum over positions t of the weight at (s, t) times the value at t. -/
theorem dotPV_apply (p : FVec Ideal S1024x12x50x50 .f32) (v : FVec Ideal S1024x12x50x64 .f32)
    (m : Fin 1024) (h : Fin 12) (s : Fin 50) (d : Fin 64) :
    Host.dotGeneral dot_S1024x12x50x50_S1024x12x50x64_S1024x12x50x64_3_2_2_3_01_01 none p v (ix4 m h s d)
      = ∑ t : Fin 50, p (ix4 m h s t) * v (ix4 m h t d) := by
  simp only [Host.dotGeneral]
  rw [Ideal.dotGeneral_apply,
    ← Equiv.sum_comp (contrEquiv1 dot_S1024x12x50x50_S1024x12x50x64_S1024x12x50x64_3_2_2_3_01_01 50 rfl rfl).symm]
  refine Finset.sum_congr rfl fun t _ => ?_
  have hl : dot_S1024x12x50x50_S1024x12x50x64_S1024x12x50x64_3_2_2_3_01_01.lhsIdx (ix4 m h s d)
      ((contrEquiv1 dot_S1024x12x50x50_S1024x12x50x64_S1024x12x50x64_3_2_2_3_01_01 50 rfl rfl).symm t) = ix4 m h s t := by
    funext a
    match a with
    | ⟨0, _⟩ => exact Fin.ext rfl
    | ⟨1, _⟩ => exact Fin.ext rfl
    | ⟨2, _⟩ => exact Fin.ext rfl
    | ⟨3, _⟩ =>
      exact Fin.ext ((DotDims.lhsIdx_val_of_single _ (cl := 3) rfl _ _).trans (contrEquiv1_symm_val _ 50 rfl rfl t))
  have hr : dot_S1024x12x50x50_S1024x12x50x64_S1024x12x50x64_3_2_2_3_01_01.rhsIdx (ix4 m h s d)
      ((contrEquiv1 dot_S1024x12x50x50_S1024x12x50x64_S1024x12x50x64_3_2_2_3_01_01 50 rfl rfl).symm t) = ix4 m h t d := by
    funext a
    match a with
    | ⟨0, _⟩ => exact Fin.ext rfl
    | ⟨1, _⟩ => exact Fin.ext rfl
    | ⟨2, _⟩ =>
      exact Fin.ext ((DotDims.rhsIdx_val_of_single _ (cr := 2) rfl _ _).trans (contrEquiv1_symm_val _ 50 rfl rfl t))
    | ⟨3, _⟩ => exact Fin.ext rfl
  rw [hl, hr]

/-- The retention plus the key residual at (row, head, s, d). -/
theorem attR_apply (q k v : FVec Ideal S1024x12x50x64 .f32) (m : Fin 1024) (h : Fin 12) (s : Fin 50) (d : Fin 64) :
    attR q k v (ix4 m h s d)
      = (∑ t : Fin 50, ((∑ e : Fin 64, q (ix4 m h s e) * k (ix4 m h t e)) * decayR (ix2 s t)) * v (ix4 m h t d))
          + k (ix4 m h s d) := by
  unfold attR
  rw [addf_apply, dotPV_apply]
  refine congrArg (· + k (ix4 m h s d)) (Finset.sum_congr rfl fun t _ => ?_)
  rw [mulf_apply, dotQK_apply, decayB_apply]

/-! ## A tile's sum -/

/-- A tile's sum, kept on two unit axes, is the double sum over positions and lanes. -/
theorem sumR_apply (o : FVec Ideal S1024x12x50x64 .f32) (m : Fin 1024) (h : Fin 12) (u w : Fin 1) :
    sumR o (ix4 m h u w) = ∑ s : Fin 50, ∑ d : Fin 64, o (ix4 m h s d) := by
  unfold sumR
  refine (broadcastInDim_apply _ _ _ _ (ix2 m h) ?_).trans ?_
  · intro a
    match a with
    | ⟨0, _⟩ => rfl
    | ⟨1, _⟩ => rfl
  · rw [hostReduceAdd_apply, Cert.LibTileSum.hostReduceAdd_tile]
    show Ideal.ofBits .f32 0x00000000#32 + _ = _
    rw [Ideal.ofBits_zero_f32, zero_add]

end Cert.ReferenceIdeal.RefValue

end
-- ==== Proof.RefRead.lean ====
/-
  The normalisation read at an index: a tile's mean is its sum over 3200; the count 3200 - 0 is 3200 and is positive,
  so the variance is the quotient of the sum of squared deviations by 3200 (the selection never takes its other
  branch); the result is the deviation divided by the square root of variance + eps.  Together with the linear
  layers and the retention this is the specification's `refOut`.
-/
import proofs.«177034_j32727650795908_2_alg».proof.Proof.RefRead1
import proofs.«177034_j32727650795908_2_alg».proof.Proof.RefRead2

noncomputable section

namespace Cert.ReferenceIdeal.RefValue

open Cert.ReferenceIdeal Cert.ReferenceIdeal.Gen Idealize.ShloMosaic Idealize.ShloMosaic.ValueIdx

/-- The f32 word 0x45480000 is the real 3200. -/
theorem c3200_eq : Cert.Spec.c3200 = ((3200 : ℝ) : EReal) := by
  unfold Cert.Spec.c3200
  simp [Ideal.ofBits, Ideal.ieee, -EReal.coe_mul]; norm_num

theorem c3200_pos : 0 < Cert.Spec.c3200 := by
  rw [c3200_eq]
  exact EReal.coe_pos.mpr (by norm_num)

/-- A per-tile value broadcast over its tile reads the tile's value. -/
theorem tileB_apply (y : FVec Ideal S1024x12x1x1 .f32) (m : Fin 1024) (h : Fin 12) (s : Fin 50) (d : Fin 64) :
    broadcastInDim S1024x12x50x64 ![0, 1, 2, 3] bcast_S1024x12x1x1_S1024x12x50x64_0_1_2_3 y (ix4 m h s d)
      = y (ix4 m h (0 : Fin 1) (0 : Fin 1)) := by
  refine broadcastInDim_apply _ _ _ _ (ix4 m h (0 : Fin 1) (0 : Fin 1)) ?_
  intro a
  match a with
  | ⟨0, _⟩ => rfl
  | ⟨1, _⟩ => rfl
  | ⟨2, _⟩ => rfl
  | ⟨3, _⟩ => rfl

/-- A tile's mean: its sum over 3200. -/
theorem meanR_apply (o : FVec Ideal S1024x12x50x64 .f32) (m : Fin 1024) (h : Fin 12) (u w : Fin 1) :
    meanR o (ix4 m h u w) = Cert.Spec.mean (fun m h s d => o (ix4 m h s d)) m h := by
  unfold meanR
  rw [hostDivf_apply, sumR_apply, broadcastInDim_scalar_apply]
  rfl

/-- The count, 3200 less the real zero, is 3200. -/
theorem cntR_apply : cntR ix0 = Cert.Spec.c3200 := by
  show Ideal.ofBits .f32 0x45480000#32 - (((0#32 : BitVec 32).toInt : ℝ) : EReal) = Cert.Spec.c3200
  have h0 : ((0#32 : BitVec 32).toInt) = 0 := by decide
  rw [h0]
  simp [Cert.Spec.c3200]

/-- A tile's variance: the count being positive, the quotient of the sum of squared deviations by 3200. -/
theorem varR_apply (o : FVec Ideal S1024x12x50x64 .f32) (m : Fin 1024) (h : Fin 12) (u w : Fin 1) :
    varR o (ix4 m h u w) = Cert.Spec.var (fun m h s d => o (ix4 m h s d)) m h := by
  unfold varR
  rw [select_apply, broadcastInDim_scalar_apply, cmpf_apply, cntR_apply]
  have hc : FloatOps.cmpf (F := Ideal) (φ := .f32) .ogt Cert.Spec.c3200 (constant (F := Ideal) S_ .f32 0x00000000#32 ix0) = 1#1 := by
    show BitVec.ofBool (decide (Ideal.ofBits .f32 0x00000000#32 < Cert.Spec.c3200)) = 1#1
    rw [Ideal.ofBits_zero_f32, decide_eq_true c3200_pos]
    rfl
  rw [hc, select_one, hostDivf_apply, sumR_apply, broadcastInDim_scalar_apply, cntR_apply]
  unfold Cert.Spec.var
  refine congrArg (Ideal.div · Cert.Spec.c3200) ?_
  refine Finset.sum_congr rfl fun s _ => Finset.sum_congr rfl fun d _ => ?_
  rw [mulf_apply, subf_apply, tileB_apply, meanR_apply]
  rfl

/-- The normalised tile is the specification's `refOut` of the array read by coordinates. -/
theorem normR_apply (o : FVec Ideal S1024x12x50x64 .f32) (m : Fin 1024) (h : Fin 12) (s : Fin 50) (d : Fin 64) :
    normR o (ix4 m h s d) = Cert.Spec.refOut (fun m h s d => o (ix4 m h s d)) m h s d := by
  unfold normR
  rw [hostDivf_apply, subf_apply, tileB_apply, tileB_apply, meanR_apply]
  show Ideal.div _ (Ideal.sqrt (addf (varR o) _ (ix4 m h (0 : Fin 1) (0 : Fin 1)))) = _
  rw [addf_apply, varR_apply, broadcastInDim_scalar_apply]
  rfl

/-- The reference's result, read at (row, head, position, lane), is the specification's `refOut` of the retention of
    the three linear layers. -/
theorem refArr_apply (X : FVec Ideal S1024x50x768 .f32) (Wq : FVec Ideal S768x768 .f32) (bq : FVec Ideal S768 .f32)
    (Wk : FVec Ideal S768x768 .f32) (bk : FVec Ideal S768 .f32) (Wv : FVec Ideal S768x768 .f32) (bv : FVec Ideal S768 .f32)
    (mi : Fin 1024) (h : Fin 12) (s : Fin 50) (d : Fin 64) :
    refArr X Wq bq Wk bk Wv bv (ix4 mi h s d)
      = Cert.Spec.refOut (Cert.Spec.att (fun s t => decayR (ix2 s t))
          (Cert.Spec.proj (fun m s e => X (ix3 m s e)) (fun e f => Wq (ix2 f e)) (fun f => bq (ix1 f)))
          (Cert.Spec.proj (fun m s e => X (ix3 m s e)) (fun e f => Wk (ix2 f e)) (fun f => bk (ix1 f)))
          (Cert.Spec.proj (fun m s e => X (ix3 m s e)) (fun e f => Wv (ix2 f e)) (fun f => bv (ix1 f)))) mi h s d := by
  unfold refArr
  rw [normR_apply]
  refine congrArg (fun o => Cert.Spec.refOut o mi h s d) ?_
  funext m' h' s' d'
  rw [attR_apply]
  simp only [projR_apply]
  rfl

end Cert.ReferenceIdeal.RefValue

end
-- ==== Proof.KSpec.lean ====
import proofs.«177034_j32727650795908_2_alg».proof.Proof.Gen.KernelIdeal.Frame
import proofs.«177034_j32727650795908_2_alg».proof.Proof.Spec
import proofs.«177034_j32727650795908_2_alg».proof.Proof.KBlock
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

/-!
  `G` of the host-transposed weights, read at an index: the weight `W` stored [out, in] enters the projection as
  `wT e f = W f e`.
-/

namespace Cert.KernelIdeal.KValue

open Cert.KernelIdeal Cert.KernelIdeal.Gen

theorem wT_apply (W : S768x768.Idx → EReal) (e f : Fin 768) :
    (truncf (F := Ideal) .bf16 (transpose S768x768 [1, 0] W transposes_S768x768_S768x768_1_0) bitsLt_bf16_f32 : S768x768.Idx → EReal) (ix2 e f) = W (ix2 f e) :=
  transpose_ix2_apply W transposes_S768x768_S768x768_1_0 e f

theorem G_args_apply (X : S1024x50x768.Idx → EReal) (Wq : S768x768.Idx → EReal) (bq : S768.Idx → EReal)
    (Wk : S768x768.Idx → EReal) (bk : S768.Idx → EReal) (Wv : S768x768.Idx → EReal) (bv : S768.Idx → EReal)
    (D : S50x50.Idx → EReal) (mi : Fin 1024) (h : Fin 12) (s : Fin 50) (d : Fin 64) :
    G X (truncf (F := Ideal) .bf16 (transpose S768x768 [1, 0] Wq transposes_S768x768_S768x768_1_0) bitsLt_bf16_f32 : S768x768.Idx → EReal) bq (truncf (F := Ideal) .bf16 (transpose S768x768 [1, 0] Wk transposes_S768x768_S768x768_1_0) bitsLt_bf16_f32 : S768x768.Idx → EReal) bk (truncf (F := Ideal) .bf16 (transpose S768x768 [1, 0] Wv transposes_S768x768_S768x768_1_0) bitsLt_bf16_f32 : S768x768.Idx → EReal) bv D (ix4 mi h s d)
      = Cert.Spec.kerOut (Cert.Spec.att (fun s t => D (ix2 s t))
          (Cert.Spec.proj (fun m s e => X (ix3 m s e)) (fun e f => Wq (ix2 f e)) (fun f => bq (ix1 f)))
          (Cert.Spec.proj (fun m s e => X (ix3 m s e)) (fun e f => Wk (ix2 f e)) (fun f => bk (ix1 f)))
          (Cert.Spec.proj (fun m s e => X (ix3 m s e)) (fun e f => Wv (ix2 f e)) (fun f => bv (ix1 f)))) mi h s d := by
  have hq : (fun e f : Fin 768 => (truncf (F := Ideal) .bf16 (transpose S768x768 [1, 0] Wq transposes_S768x768_S768x768_1_0) bitsLt_bf16_f32 : S768x768.Idx → EReal) (ix2 e f)) = fun e f => Wq (ix2 f e) :=
    funext fun e => funext fun f => wT_apply Wq e f
  have hk : (fun e f : Fin 768 => (truncf (F := Ideal) .bf16 (transpose S768x768 [1, 0] Wk transposes_S768x768_S768x768_1_0) bitsLt_bf16_f32 : S768x768.Idx → EReal) (ix2 e f)) = fun e f => Wk (ix2 f e) :=
    funext fun e => funext fun f => wT_apply Wk e f
  have hv : (fun e f : Fin 768 => (truncf (F := Ideal) .bf16 (transpose S768x768 [1, 0] Wv transposes_S768x768_S768x768_1_0) bitsLt_bf16_f32 : S768x768.Idx → EReal) (ix2 e f)) = fun e f => Wv (ix2 f e) :=
    funext fun e => funext fun f => wT_apply Wv e f
  unfold G
  rw [hq, hk, hv]

end Cert.KernelIdeal.KValue

end
-- ==== Proof.Norm.lean ====
/-
  Why scaling by the inverse square root and dividing by the square root agree.

  For an extended real `y > 0` (possibly `⊤`) and ANY extended real `a`,
  `a / √y = a · y^(-1/2)`: for a positive real both sides are `a · (√y)⁻¹`, and at `⊤` both are `a · 0`.
  In the normalisation `y` is `variance + eps`: the variance is a sum of squares (each `x · x ≥ 0`, at the
  infinities too) divided by the positive count 3200, so it is `≥ 0`, and eps is a positive real; hence
  `y > 0` and the two forms of the normalised tile are one function.  No finiteness of the data is needed.
-/
import proofs.«177034_j32727650795908_2_alg».proof.Proof.Spec

noncomputable section

namespace Cert.Spec

open Idealize.ShloMosaic

/-- Dividing by the square root of a positive extended real is multiplying by its inverse square root. -/
theorem div_sqrt_eq_mul_rsqrt (a y : EReal) (hy : 0 < y) : Ideal.div a (Ideal.sqrt y) = a * Ideal.rsqrt y := by
  induction y using EReal.rec with
  | bot => exact absurd hy (not_lt.mpr bot_le)
  | top =>
    rw [Ideal.sqrt_top, Ideal.rsqrt_top, Ideal.div, if_neg (by simp), EReal.inv_top]
  | coe r =>
    have hr : 0 < r := EReal.coe_pos.mp hy
    have hs : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hs.ne'), EReal.coe_inv]

/-- The word of 3200 is the real 3200. -/
theorem c3200_eq : c3200 = ((3200 : ℝ) : EReal) := by
  unfold c3200
  simp [Ideal.ofBits, Ideal.ieee]
  rw [← EReal.coe_mul]
  norm_num

/-- The word of eps is a positive real. -/
theorem ceps_pos : 0 < ceps := by
  unfold ceps
  simp [Ideal.ofBits, Ideal.ieee]
  positivity

theorem mul_self_nonneg' (x : EReal) : 0 ≤ x * x :=
  EReal.mul_nonneg_iff.mpr ((le_total 0 x).imp (fun h => ⟨h, h⟩) (fun h => ⟨h, h⟩))

variable {M : Type}

theorem var_nonneg (o : M → Fin 12 → Fin 50 → Fin 64 → EReal) (m : M) (h : Fin 12) : 0 ≤ var o m h := by
  unfold var
  rw [c3200_eq, Ideal.div_coe (by norm_num : (3200 : ℝ) ≠ 0)]
  refine EReal.mul_nonneg (Finset.sum_nonneg fun s _ => Finset.sum_nonneg fun d _ => mul_self_nonneg' _) ?_
  exact_mod_cast (by positivity : (0 : ℝ) ≤ 1 / 3200)

/-- The two forms of the normalised tile are one function. -/
theorem kerOut_eq_refOut (o : M → Fin 12 → Fin 50 → Fin 64 → EReal) (m : M) (h : Fin 12) (s : Fin 50) (d : Fin 64) :
    kerOut o m h s d = refOut o m h s d := by
  unfold kerOut refOut
  rw [div_sqrt_eq_mul_rsqrt _ _ (by
    have := var_nonneg o m h
    have := ceps_pos
    exact lt_of_lt_of_le ceps_pos (le_add_of_nonneg_left (var_nonneg o m h)))]

end Cert.Spec

end
-- ==== Proof.Bridge.lean ====
/-
  The two programs' results are one function of the arguments.

  The kernel's program ends with the reshape of `G` (the specification's tile scaled by the inverse square root,
  over projections with the host-transposed weights); the reference's with the same reshape of its own term, which
  read at an index is the specification's tile divided by the square root, over the same projections and the same
  decay table (both programs build the table by the same host operations).  The two tiles agree
  (`Cert.Spec.kerOut_eq_refOut`), so the arrays agree index by index and the reshapes of equal arrays are equal.
-/
import proofs.«177034_j32727650795908_2_alg».proof.Proof.KTail
import proofs.«177034_j32727650795908_2_alg».proof.Proof.KSpec
import proofs.«177034_j32727650795908_2_alg».proof.Proof.Norm
import proofs.«177034_j32727650795908_2_alg».proof.Proof.RefReadDefs

noncomputable section

open Idealize.ShloMosaic Idealize.ShloMosaic.ValueIdx

namespace Cert.Proof.Bridge

open Cert.ReferenceIdeal.RefValue

/-- Both programs compute the decay table by the same host operations. -/
theorem decay_eq : Cert.KernelIdeal.KValue.decayK = decayR := rfl

/-- The reference's array read at an index (the statement its value proof establishes). -/
def RefApply : Prop :=
  ∀ (X : FVec Ideal Cert.ReferenceIdeal.S1024x50x768 .f32) (Wq : FVec Ideal Cert.ReferenceIdeal.S768x768 .f32)
    (bq : FVec Ideal Cert.ReferenceIdeal.S768 .f32) (Wk : FVec Ideal Cert.ReferenceIdeal.S768x768 .f32)
    (bk : FVec Ideal Cert.ReferenceIdeal.S768 .f32) (Wv : FVec Ideal Cert.ReferenceIdeal.S768x768 .f32)
    (bv : FVec Ideal Cert.ReferenceIdeal.S768 .f32) (mi : Fin 1024) (h : Fin 12) (s : Fin 50) (d : Fin 64),
    refArr X Wq bq Wk bk Wv bv (ix4 mi h s d)
      = Cert.Spec.refOut (Cert.Spec.att (fun s t => decayR (ix2 s t))
          (Cert.Spec.proj (fun m s e => X (ix3 m s e)) (fun e f => Wq (ix2 f e)) (fun f => bq (ix1 f)))
          (Cert.Spec.proj (fun m s e => X (ix3 m s e)) (fun e f => Wk (ix2 f e)) (fun f => bk (ix1 f)))
          (Cert.Spec.proj (fun m s e => X (ix3 m s e)) (fun e f => Wv (ix2 f e)) (fun f => bv (ix1 f)))) mi h s d

/-- The region's result array is the reference's array. -/
theorem arrays_eq (hR : RefApply)
    (X : FVec Ideal Cert.ReferenceIdeal.S1024x50x768 .f32) (Wq : FVec Ideal Cert.ReferenceIdeal.S768x768 .f32)
    (bq : FVec Ideal Cert.ReferenceIdeal.S768 .f32) (Wk : FVec Ideal Cert.ReferenceIdeal.S768x768 .f32)
    (bk : FVec Ideal Cert.ReferenceIdeal.S768 .f32) (Wv : FVec Ideal Cert.ReferenceIdeal.S768x768 .f32)
    (bv : FVec Ideal Cert.ReferenceIdeal.S768 .f32) :
    Cert.KernelIdeal.KValue.G X (truncf (F := Ideal) .bf16 (transpose Cert.KernelIdeal.S768x768 [1, 0] Wq Cert.KernelIdeal.Gen.transposes_S768x768_S768x768_1_0) Cert.KernelIdeal.Gen.bitsLt_bf16_f32 : Cert.KernelIdeal.S768x768.Idx → EReal) bq (truncf (F := Ideal) .bf16 (transpose Cert.KernelIdeal.S768x768 [1, 0] Wk Cert.KernelIdeal.Gen.transposes_S768x768_S768x768_1_0) Cert.KernelIdeal.Gen.bitsLt_bf16_f32 : Cert.KernelIdeal.S768x768.Idx → EReal) bk (truncf (F := Ideal) .bf16 (transpose Cert.KernelIdeal.S768x768 [1, 0] Wv Cert.KernelIdeal.Gen.transposes_S768x768_S768x768_1_0) Cert.KernelIdeal.Gen.bitsLt_bf16_f32 : Cert.KernelIdeal.S768x768.Idx → EReal) bv Cert.KernelIdeal.KValue.decayK
      = refArr X Wq bq Wk bk Wv bv := by
  funext j
  obtain ⟨a, h, s, d, rfl⟩ : ∃ (a : Fin 1024) (h : Fin 12) (s : Fin 50) (d : Fin 64), j = ix4 a h s d :=
    ⟨j 0, j 1, j 2, j 3, eq_ix4 j⟩
  rw [Cert.KernelIdeal.KValue.G_args_apply, hR, decay_eq]
  exact Cert.Spec.kerOut_eq_refOut _ a h s d

/-- The two programs' result buffers, as functions of the arguments, are equal. -/
theorem result_eq (hR : RefApply)
    (X : FVec Ideal Cert.ReferenceIdeal.S1024x50x768 .f32) (Wq : FVec Ideal Cert.ReferenceIdeal.S768x768 .f32)
    (bq : FVec Ideal Cert.ReferenceIdeal.S768 .f32) (Wk : FVec Ideal Cert.ReferenceIdeal.S768x768 .f32)
    (bk : FVec Ideal Cert.ReferenceIdeal.S768 .f32) (Wv : FVec Ideal Cert.ReferenceIdeal.S768x768 .f32)
    (bv : FVec Ideal Cert.ReferenceIdeal.S768 .f32) :
    Cert.KernelIdeal.KValue.tailK
        (Cert.KernelIdeal.KValue.G X (truncf (F := Ideal) .bf16 (transpose Cert.KernelIdeal.S768x768 [1, 0] Wq Cert.KernelIdeal.Gen.transposes_S768x768_S768x768_1_0) Cert.KernelIdeal.Gen.bitsLt_bf16_f32 : Cert.KernelIdeal.S768x768.Idx → EReal) bq (truncf (F := Ideal) .bf16 (transpose Cert.KernelIdeal.S768x768 [1, 0] Wk Cert.KernelIdeal.Gen.transposes_S768x768_S768x768_1_0) Cert.KernelIdeal.Gen.bitsLt_bf16_f32 : Cert.KernelIdeal.S768x768.Idx → EReal) bk (truncf (F := Ideal) .bf16 (transpose Cert.KernelIdeal.S768x768 [1, 0] Wv Cert.KernelIdeal.Gen.transposes_S768x768_S768x768_1_0) Cert.KernelIdeal.Gen.bitsLt_bf16_f32 : Cert.KernelIdeal.S768x768.Idx → EReal) bv Cert.KernelIdeal.KValue.decayK)
      = shapeCast Cert.ReferenceIdeal.S1024x50x768 (refArr X Wq bq Wk bk Wv bv)
          Cert.ReferenceIdeal.Gen.shapeCasts_S1024x12x50x64_S1024x50x768 := by
  rw [arrays_eq hR]
  rfl

end Cert.Proof.Bridge

end
-- ==== Proof.lean ====
/-
  The certificate of the fused retention kernel against its jnp reference, over the extended reals.

  Both programs compute, for every batch row and head, the 50 x 64 tile
  `o = ((q_h k_hᵀ) ∘ D) v_h + k_h` of three linear layers `q, k, v = x Wᵀ + b` with the decay table
  `D s t = 1 / (1 + |s - t|)`, normalise the tile by its mean and variance, and reshape.  The kernel computes 16
  batch rows per grid point, head by head, with the weights transposed on the host, and scales the deviations by
  `rsqrt (variance + eps)`; the reference computes whole arrays and divides by `sqrt (variance + eps)`.
  `Proof/Spec.lean` states the tile once; `Proof/Norm.lean` shows the two scalings agree because variance + eps is
  positive; the kernel's blocks are restrictions of one function of the whole arrays (`Proof/KBlock.lean` …
  `Proof/KTail.lean`, over the body's value read at an index, `Proof/KBody*.lean`); the reference's run and its
  value at an index are `Proof/RefRun.lean` and `Proof/RefRead*.lean`; `Proof/Bridge.lean` joins the two.
  The frames of the two kernel programs are the generated ones; the reference's frame is its run with the result
  dropped; the idealization rewrote nothing, so `preserves` is `True`.
-/
import proofs.«177034_j32727650795908_2_alg».proof.Defs
import proofs.«177034_j32727650795908_2_alg».proof.Proof.Gen.Kernel
import proofs.«177034_j32727650795908_2_alg».proof.Proof.Gen.Kernel.Skeleton
import proofs.«177034_j32727650795908_2_alg».proof.Proof.Gen.Kernel.Launch
import proofs.«177034_j32727650795908_2_alg».proof.Proof.Gen.Kernel.Points
import proofs.«177034_j32727650795908_2_alg».proof.Proof.Gen.Kernel.Frame
import proofs.«177034_j32727650795908_2_alg».proof.Proof.Gen.KernelIdeal
import proofs.«177034_j32727650795908_2_alg».proof.Proof.Gen.KernelIdeal.Skeleton
import proofs.«177034_j32727650795908_2_alg».proof.Proof.Gen.KernelIdeal.Launch
import proofs.«177034_j32727650795908_2_alg».proof.Proof.Gen.KernelIdeal.Points
import proofs.«177034_j32727650795908_2_alg».proof.Proof.Gen.KernelIdeal.Frame
import proofs.«177034_j32727650795908_2_alg».proof.Proof.Gen.ReferenceIdeal
import proofs.«177034_j32727650795908_2_alg».proof.Proof.Gen.Pre_finite_inputs
import proofs.«177034_j32727650795908_2_alg».proof.Proof.KTail
import proofs.«177034_j32727650795908_2_alg».proof.Proof.KBody
import proofs.«177034_j32727650795908_2_alg».proof.Proof.RefRun
import proofs.«177034_j32727650795908_2_alg».proof.Proof.RefRead
import proofs.«177034_j32727650795908_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefValue.run m ρ)

/-- Both programs end at the same function of arguments that agree. -/
theorem algebraic : Cert.algebraic_KernelIdeal_ReferenceIdeal := by
  intro m ρ m' ρ' _ hagree
  refine ⟨_, Cert.KernelIdeal.KValue.run m ρ Cert.KernelIdeal.KValue.body_apply, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6⟩ := hagree c
  rw [h0, h1, h2, h3, h4, h5, h6]
  exact (Cert.Proof.Bridge.result_eq Cert.ReferenceIdeal.RefValue.refArr_apply _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
